-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x52x52 : Shape := ⟨4, ![8, 256, 52, 52]⟩
abbrev S2304x512 : Shape := ⟨2, ![2304, 512]⟩
abbrev S512 : Shape := ⟨1, ![512]⟩
abbrev S_ : Shape := ⟨0, ![]⟩

class Facts : Prop where
  bcast_S_S8x256x52x52 : S_.BroadcastsInDim S8x256x52x52 (![] : Fin 0 → Fin S8x256x52x52.rank)
  reducesTo_S8x256x52x52_S_d0_1_2_3 : S8x256x52x52.ReducesTo [0, 1, 2, 3] S_
  h_S_ : 0 < S_.numel
  bcast_S_S2304x512 : S_.BroadcastsInDim S2304x512 (![] : Fin 0 → Fin S2304x512.rank)
  reducesTo_S2304x512_S_d0_1 : S2304x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x256x52x52 .f32) (main_arg1 : FVec F S2304x512 .f32) (main_arg2 : FVec F S512 .f32) : IVec S_ 1 :=
  let main_v0 : FVec F S8x256x52x52 .f32 := Host.absf main_arg0
  let main_cst : FVec F S_ .f32 := constant S_ .f32 0x7F800000#32
  let main_v1 : FVec F S8x256x52x52 .f32 := broadcastInDim S8x256x52x52 ![] bcast_S_S8x256x52x52 main_cst
  let main_v2 : IVec S8x256x52x52 1 := cmpf .olt main_v0 main_v1
  let main_c : IVec S_ 1 := constantI S_ 1 1#1
  let main_v3 : IVec S_ 1 := (fun x v => Host.reduce IntOp.andi x v reducesTo_S8x256x52x52_S_d0_1_2_3 h_S_) main_v2 main_c
  let main_v4 : FVec F S2304x512 .f32 := Host.absf main_arg1
  let main_cst_0 : FVec F S_ .f32 := constant S_ .f32 0x7F800000#32
  let main_v5 : FVec F S2304x512 .f32 := broadcastInDim S2304x512 ![] bcast_S_S2304x512 main_cst_0
  let main_v6 : IVec S2304x512 1 := cmpf .olt main_v4 main_v5
  let main_c_1 : IVec S_ 1 := constantI S_ 1 1#1
  let main_v7 : IVec S_ 1 := (fun x v => Host.reduce IntOp.andi x v reducesTo_S2304x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x256x52x52 : Shape := ⟨4, ![8, 256, 52, 52]⟩
abbrev S2304x512 : Shape := ⟨2, ![2304, 512]⟩
abbrev S512 : Shape := ⟨1, ![512]⟩
abbrev S_ : Shape := ⟨0, ![]⟩
abbrev S8x52x52x256 : Shape := ⟨4, ![8, 52, 52, 256]⟩
abbrev S8x54x54x256 : Shape := ⟨4, ![8, 54, 54, 256]⟩
abbrev S256x3x3x512 : Shape := ⟨4, ![256, 3, 3, 512]⟩
abbrev S3x3x256x512 : Shape := ⟨4, ![3, 3, 256, 512]⟩
abbrev S9x256x512 : Shape := ⟨3, ![9, 256, 512]⟩
abbrev S1x512 : Shape := ⟨2, ![1, 512]⟩
abbrev S8x2704x512 : Shape := ⟨3, ![8, 2704, 512]⟩
abbrev S1x54x54x256 : Shape := ⟨4, ![1, 54, 54, 256]⟩
abbrev S1x2704x512 : Shape := ⟨3, ![1, 2704, 512]⟩
abbrev S2704x512 : Shape := ⟨2, ![2704, 512]⟩
abbrev S1x52x52x256 : Shape := ⟨4, ![1, 52, 52, 256]⟩
abbrev S52x52x256 : Shape := ⟨3, ![52, 52, 256]⟩
abbrev S2704x256 : Shape := ⟨2, ![2704, 256]⟩
abbrev S1x256x512 : Shape := ⟨3, ![1, 256, 512]⟩
abbrev S256x512 : Shape := ⟨2, ![256, 512]⟩
abbrev S8x52x52x512 : Shape := ⟨4, ![8, 52, 52, 512]⟩
abbrev S8x512x52x52 : Shape := ⟨4, ![8, 512, 52, 52]⟩

abbrev nBuf : Space → Nat
  | .hbm => 34
  | .vmem => 7
  | .smem => 0
  | _ => 0

abbrev bufTy : (tb : Table) → Fin (tcTables nBuf tb) → BufTy
  | .hbm, ⟨0, _⟩ => ⟨S8x256x52x52, .f32⟩
  | .hbm, ⟨1, _⟩ => ⟨S2304x512, .f32⟩
  | .hbm, ⟨2, _⟩ => ⟨S512, .f32⟩
  | .hbm, ⟨3, _⟩ => ⟨S_, .f32⟩
  | .hbm, ⟨4, _⟩ => ⟨S8x256x52x52, .f32⟩
  | .hbm, ⟨5, _⟩ => ⟨S8x256x52x52, .f32⟩
  | .hbm, ⟨6, _⟩ => ⟨S8x256x52x52, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x256x52x52, .f32⟩
  | .hbm, ⟨11, _⟩ => ⟨S8x256x52x52, .f32⟩
  | .hbm, ⟨12, _⟩ => ⟨S_, .f32⟩
  | .hbm, ⟨13, _⟩ => ⟨S8x256x52x52, .f32⟩
  | .hbm, ⟨14, _⟩ => ⟨S8x256x52x52, .f32⟩
  | .hbm, ⟨15, _⟩ => ⟨S_, .f32⟩
  | .hbm, ⟨16, _⟩ => ⟨S8x256x52x52, .f32⟩
  | .hbm, ⟨17, _⟩ => ⟨S8x256x52x52, .f32⟩
  | .hbm, ⟨18, _⟩ => ⟨S8x52x52x256, .f32⟩
  | .hbm, ⟨19, _⟩ => ⟨S_, .i32⟩
  | .hbm, ⟨20, _⟩ => ⟨S_, .f32⟩
  | .hbm, ⟨21, _⟩ => ⟨S8x54x54x256, .f32⟩
  | .hbm, ⟨22, _⟩ => ⟨S8x54x54x256, .bf16⟩
  | .hbm, ⟨23, _⟩ => ⟨S256x3x3x512, .f32⟩
  | .hbm, ⟨24, _⟩ => ⟨S3x3x256x512, .f32⟩
  | .hbm, ⟨25, _⟩ => ⟨S9x256x512, .f32⟩
  | .hbm, ⟨26, _⟩ => ⟨S9x256x512, .bf16⟩
  | .hbm, ⟨27, _⟩ => ⟨S9x256x512, .f32⟩
  | .hbm, ⟨28, _⟩ => ⟨S9x256x512, .f32⟩
  | .hbm, ⟨29, _⟩ => ⟨S9x256x512, .bf16⟩
  | .hbm, ⟨30, _⟩ => ⟨S1x512, .f32⟩
  | .hbm, ⟨31, _⟩ => ⟨S8x2704x512, .f32⟩
  | .hbm, ⟨32, _⟩ => ⟨S8x52x52x512, .f32⟩
  | .hbm, ⟨33, _⟩ => ⟨S8x512x52x52, .f32⟩
  | .local _ .vmem, ⟨0, _⟩ => ⟨S1x54x54x256, .bf16⟩
  | .local _ .vmem, ⟨1, _⟩ => ⟨S1x54x54x256, .bf16⟩
  | .local _ .vmem, ⟨2, _⟩ => ⟨S9x256x512, .bf16⟩
  | .local _ .vmem, ⟨3, _⟩ => ⟨S9x256x512, .bf16⟩
  | .local _ .vmem, ⟨4, _⟩ => ⟨S1x512, .f32⟩
  | .local _ .vmem, ⟨5, _⟩ => ⟨S1x2704x512, .f32⟩
  | .local _ .vmem, ⟨6, _⟩ => ⟨S1x2704x512, .f32⟩
  | _, _ => ⟨S8x256x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x54x54x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8x256x52x52 : S_.BroadcastsInDim S8x256x52x52 (![] : Fin 0 → Fin S8x256x52x52.rank)
  transposes_S8x256x52x52_S8x52x52x256_0_2_3_1 : S8x256x52x52.Transposes [0, 2, 3, 1] S8x52x52x256
  pads_S8x52x52x256_S8x54x54x256_000_110_110_000 : S8x52x52x256.Pads (![0, 1, 1, 0] : Fin 4 → Nat) ![0, 1, 1, 0] ![0, 0, 0, 0] S8x54x54x256
  h_S_ : 0 < S_.numel
  bitsLt_bf16_f32 : FTy.bits .bf16 < FTy.bits .f32
  shapeCasts_S2304x512_S256x3x3x512 : S2304x512.ShapeCasts S256x3x3x512
  transposes_S256x3x3x512_S3x3x256x512_1_2_0_3 : S256x3x3x512.Transposes [1, 2, 0, 3] S3x3x256x512
  shapeCasts_S3x3x256x512_S9x256x512 : S3x3x256x512.ShapeCasts S9x256x512
  shapeCasts_S512_S1x512 : S512.ShapeCasts S1x512
  inb_S1x2704x512_S1x2704x512_0_0_0 : ∀ a, (![0, 0, 0] : Fin 3 → Nat) a + S1x2704x512.size a ≤ S1x2704x512.size a
  h_S1x2704x512 : 0 < S1x2704x512.numel
  shapeCasts_S1x2704x512_S2704x512 : S1x2704x512.ShapeCasts S2704x512
  shapeCasts_S2704x512_S1x2704x512 : S2704x512.ShapeCasts S1x2704x512
  inb_S1x54x54x256_S1x52x52x256_0_0_0_0 : ∀ a, (![0, 0, 0, 0] : Fin 4 → Nat) a + S1x52x52x256.size a ≤ S1x54x54x256.size a
  h_S1x52x52x256 : 0 < S1x52x52x256.numel
  shapeCasts_S1x52x52x256_S52x52x256 : S1x52x52x256.ShapeCasts S52x52x256
  shapeCasts_S52x52x256_S2704x256 : S52x52x256.ShapeCasts S2704x256
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  inb_S1x54x54x256_S1x52x52x256_0_0_1_0 : ∀ a, (![0, 0, 1, 0] : Fin 4 → Nat) a + S1x52x52x256.size a ≤ S1x54x54x256.size a
  inb_S9x256x512_S1x256x512_1_0_0 : ∀ a, (![1, 0, 0] : Fin 3 → Nat) a + S1x256x512.size a ≤ S9x256x512.size a
  inb_S1x54x54x256_S1x52x52x256_0_0_2_0 : ∀ a, (![0, 0, 2, 0] : Fin 4 → Nat) a + S1x52x52x256.size a ≤ S1x54x54x256.size a
  inb_S9x256x512_S1x256x512_2_0_0 : ∀ a, (![2, 0, 0] : Fin 3 → Nat) a + S1x256x512.size a ≤ S9x256x512.size a
  inb_S1x54x54x256_S1x52x52x256_0_1_0_0 : ∀ a, (![0, 1, 0, 0] : Fin 4 → Nat) a + S1x52x52x256.size a ≤ S1x54x54x256.size a
  inb_S9x256x512_S1x256x512_3_0_0 : ∀ a, (![3, 0, 0] : Fin 3 → Nat) a + S1x256x512.size a ≤ S9x256x512.size a
  inb_S1x54x54x256_S1x52x52x256_0_1_1_0 : ∀ a, (![0, 1, 1, 0] : Fin 4 → Nat) a + S1x52x52x256.size a ≤ S1x54x54x256.size a
  inb_S9x256x512_S1x256x512_4_0_0 : ∀ a, (![4, 0, 0] : Fin 3 → Nat) a + S1x256x512.size a ≤ S9x256x512.size a
  inb_S1x54x54x256_S1x52x52x256_0_1_2_0 : ∀ a, (![0, 1, 2, 0] : Fin 4 → Nat) a + S1x52x52x256.size a ≤ S1x54x54x256.size a
  inb_S9x256x512_S1x256x512_5_0_0 : ∀ a, (![5, 0, 0] : Fin 3 → Nat) a + S1x256x512.size a ≤ S9x256x512.size a
  inb_S1x54x54x256_S1x52x52x256_0_2_0_0 : ∀ a, (![0, 2, 0, 0] : Fin 4 → Nat) a + S1x52x52x256.size a ≤ S1x54x54x256.size a
  inb_S9x256x512_S1x256x512_6_0_0 : ∀ a, (![6, 0, 0] : Fin 3 → Nat) a + S1x256x512.size a ≤ S9x256x512.size a
  inb_S1x54x54x256_S1x52x52x256_0_2_1_0 : ∀ a, (![0, 2, 1, 0] : Fin 4 → Nat) a + S1x52x52x256.size a ≤ S1x54x54x256.size a
  inb_S9x256x512_S1x256x512_7_0_0 : ∀ a, (![7, 0, 0] : Fin 3 → Nat) a + S1x256x512.size a ≤ S9x256x512.size a
  inb_S1x54x54x256_S1x52x52x256_0_2_2_0 : ∀ a, (![0, 2, 2, 0] : Fin 4 → Nat) a + S1x52x52x256.size a ≤ S1x54x54x256.size a
  inb_S9x256x512_S1x256x512_8_0_0 : ∀ a, (![8, 0, 0] : Fin 3 → Nat) a + S1x256x512.size a ≤ S9x256x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2704x512 : S1x512.Broadcasts S2704x512
  shapeCasts_S8x2704x512_S8x52x52x512 : S8x2704x512.ShapeCasts S8x52x52x512
  transposes_S8x52x52x512_S8x512x52x52_0_3_1_2 : S8x52x52x512.Transposes [0, 3, 1, 2] S8x512x52x52
  dot_S2704x256_S256x512_S2704x512_1_0_0_1_n_n_wf : DotDims.WF S2704x256 S256x512 S2704x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x54x54x256.size a ≤ S8x54x54x256.size a
  hwx0_0 : ∀ i : grid0.Coords, EltTy.bits .bf16 = 32 ∨ (Rect.block (s := S8x54x54x256) S1x54x54x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x256x512.size a ≤ S9x256x512.size a
  hwx0_1 : ∀ i : grid0.Coords, EltTy.bits .bf16 = 32 ∨ (Rect.block (s := S9x256x512) S9x256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x256x512.size a ≤ S9x256x512.size a
  hwx0_2 : ∀ i : grid0.Coords, EltTy.bits .bf16 = 32 ∨ (Rect.block (s := S9x256x512) S9x256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2704x512.size a ≤ S8x2704x512.size a
  hwx0_4 : ∀ i : grid0.Coords, EltTy.bits .f32 = 32 ∨ (Rect.block (s := S8x2704x512) S1x2704x512.size (cc0_transform_4 i) (hinb0_4 i)).WholeWords (EltTy.packing .f32)

variable [Facts₀]

def dot_S2704x256_S256x512_S2704x512_1_0_0_1_n_n : DotDims S2704x256 S256x512 S2704x512 where
  lhsContracting := [1]
  rhsContracting := [0]
  lhsNonContracting := [0]
  rhsNonContracting := [1]
  lhsBatch := []
  rhsBatch := []
  wf := dot_S2704x256_S256x512_S2704x512_1_0_0_1_n_n_wf

abbrev win0_0 : Pipeline.Window sig grid0 :=
  Pipeline.Window.ofSpec (Memref.whole main_v8) S1x54x54x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S9x256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S9x256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x2704x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x52x52 : Shape := ⟨4, ![8, 256, 52, 52]⟩
abbrev S2304x512 : Shape := ⟨2, ![2304, 512]⟩
abbrev S512 : Shape := ⟨1, ![512]⟩
abbrev S_ : Shape := ⟨0, ![]⟩
abbrev S8x256x54x54 : Shape := ⟨4, ![8, 256, 54, 54]⟩
abbrev S1x8x256x52x52 : Shape := ⟨5, ![1, 8, 256, 52, 52]⟩
abbrev S9x8x256x52x52 : Shape := ⟨5, ![9, 8, 256, 52, 52]⟩
abbrev S3x3x8x256x52x52 : Shape := ⟨6, ![3, 3, 8, 256, 52, 52]⟩
abbrev S8x52x52x256x3x3 : Shape := ⟨6, ![8, 52, 52, 256, 3, 3]⟩
abbrev S21632x2304 : Shape := ⟨2, ![21632, 2304]⟩
abbrev S21632x512 : Shape := ⟨2, ![21632, 512]⟩
abbrev S1x512 : Shape := ⟨2, ![1, 512]⟩
abbrev S8x52x52x512 : Shape := ⟨4, ![8, 52, 52, 512]⟩
abbrev S8x512x52x52 : Shape := ⟨4, ![8, 512, 52, 52]⟩

abbrev nBuf : Space → Nat
  | .hbm => 64
  | .vmem => 0
  | .smem => 0
  | _ => 0

abbrev bufTy : (tb : Table) → Fin (tcTables nBuf tb) → BufTy
  | .hbm, ⟨0, _⟩ => ⟨S8x256x52x52, .f32⟩
  | .hbm, ⟨1, _⟩ => ⟨S2304x512, .f32⟩
  | .hbm, ⟨2, _⟩ => ⟨S512, .f32⟩
  | .hbm, ⟨3, _⟩ => ⟨S_, .f32⟩
  | .hbm, ⟨4, _⟩ => ⟨S8x256x52x52, .f32⟩
  | .hbm, ⟨5, _⟩ => ⟨S8x256x52x52, .f32⟩
  | .hbm, ⟨6, _⟩ => ⟨S8x256x52x52, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x256x52x52, .f32⟩
  | .hbm, ⟨11, _⟩ => ⟨S8x256x52x52, .f32⟩
  | .hbm, ⟨12, _⟩ => ⟨S_, .f32⟩
  | .hbm, ⟨13, _⟩ => ⟨S8x256x52x52, .f32⟩
  | .hbm, ⟨14, _⟩ => ⟨S8x256x52x52, .f32⟩
  | .hbm, ⟨15, _⟩ => ⟨S_, .i32⟩
  | .hbm, ⟨16, _⟩ => ⟨S_, .f32⟩
  | .hbm, ⟨17, _⟩ => ⟨S8x256x54x54, .f32⟩
  | .hbm, ⟨18, _⟩ => ⟨S8x256x52x52, .f32⟩
  | .hbm, ⟨19, _⟩ => ⟨S8x256x52x52, .f32⟩
  | .hbm, ⟨20, _⟩ => ⟨S8x256x52x52, .f32⟩
  | .hbm, ⟨21, _⟩ => ⟨S8x256x52x52, .f32⟩
  | .hbm, ⟨22, _⟩ => ⟨S8x256x52x52, .f32⟩
  | .hbm, ⟨23, _⟩ => ⟨S8x256x52x52, .f32⟩
  | .hbm, ⟨24, _⟩ => ⟨S8x256x52x52, .f32⟩
  | .hbm, ⟨25, _⟩ => ⟨S8x256x52x52, .f32⟩
  | .hbm, ⟨26, _⟩ => ⟨S8x256x52x52, .f32⟩
  | .hbm, ⟨27, _⟩ => ⟨S1x8x256x52x52, .f32⟩
  | .hbm, ⟨28, _⟩ => ⟨S1x8x256x52x52, .f32⟩
  | .hbm, ⟨29, _⟩ => ⟨S1x8x256x52x52, .f32⟩
  | .hbm, ⟨30, _⟩ => ⟨S1x8x256x52x52, .f32⟩
  | .hbm, ⟨31, _⟩ => ⟨S1x8x256x52x52, .f32⟩
  | .hbm, ⟨32, _⟩ => ⟨S1x8x256x52x52, .f32⟩
  | .hbm, ⟨33, _⟩ => ⟨S1x8x256x52x52, .f32⟩
  | .hbm, ⟨34, _⟩ => ⟨S1x8x256x52x52, .f32⟩
  | .hbm, ⟨35, _⟩ => ⟨S1x8x256x52x52, .f32⟩
  | .hbm, ⟨36, _⟩ => ⟨S9x8x256x52x52, .f32⟩
  | .hbm, ⟨37, _⟩ => ⟨S3x3x8x256x52x52, .f32⟩
  | .hbm, ⟨38, _⟩ => ⟨S8x52x52x256x3x3, .f32⟩
  | .hbm, ⟨39, _⟩ => ⟨S21632x2304, .f32⟩
  | .hbm, ⟨40, _⟩ => ⟨S_, .f32⟩
  | .hbm, ⟨41, _⟩ => ⟨S21632x2304, .f32⟩
  | .hbm, ⟨42, _⟩ => ⟨S21632x2304, .f32⟩
  | .hbm, ⟨43, _⟩ => ⟨S21632x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S21632x512, .f32⟩
  | .hbm, ⟨49, _⟩ => ⟨S21632x512, .f32⟩
  | .hbm, ⟨50, _⟩ => ⟨S_, .f32⟩
  | .hbm, ⟨51, _⟩ => ⟨S21632x512, .f32⟩
  | .hbm, ⟨52, _⟩ => ⟨S21632x512, .f32⟩
  | .hbm, ⟨53, _⟩ => ⟨S21632x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S21632x512, .f32⟩
  | .hbm, ⟨58, _⟩ => ⟨S21632x512, .f32⟩
  | .hbm, ⟨59, _⟩ => ⟨S_, .f32⟩
  | .hbm, ⟨60, _⟩ => ⟨S21632x512, .f32⟩
  | .hbm, ⟨61, _⟩ => ⟨S21632x512, .f32⟩
  | .hbm, ⟨62, _⟩ => ⟨S8x52x52x512, .f32⟩
  | .hbm, ⟨63, _⟩ => ⟨S8x512x52x52, .f32⟩
  | _, _ => ⟨S8x256x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_c : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_cst_6 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S8x256x52x52 : S_.BroadcastsInDim S8x256x52x52 (![] : Fin 0 → Fin S8x256x52x52.rank)
  pads_S8x256x52x52_S8x256x54x54_000_000_110_110 : S8x256x52x52.Pads (![0, 0, 1, 1] : Fin 4 → Nat) ![0, 0, 1, 1] ![0, 0, 0, 0] S8x256x54x54
  h_S_ : 0 < S_.numel
  slices_S8x256x54x54_S8x256x52x52_0_0_0_0 : S8x256x54x54.Slices ![0, 0, 0, 0] S8x256x52x52
  slices_S8x256x54x54_S8x256x52x52_0_0_0_1 : S8x256x54x54.Slices ![0, 0, 0, 1] S8x256x52x52
  slices_S8x256x54x54_S8x256x52x52_0_0_0_2 : S8x256x54x54.Slices ![0, 0, 0, 2] S8x256x52x52
  slices_S8x256x54x54_S8x256x52x52_0_0_1_0 : S8x256x54x54.Slices ![0, 0, 1, 0] S8x256x52x52
  slices_S8x256x54x54_S8x256x52x52_0_0_1_1 : S8x256x54x54.Slices ![0, 0, 1, 1] S8x256x52x52
  slices_S8x256x54x54_S8x256x52x52_0_0_1_2 : S8x256x54x54.Slices ![0, 0, 1, 2] S8x256x52x52
  slices_S8x256x54x54_S8x256x52x52_0_0_2_0 : S8x256x54x54.Slices ![0, 0, 2, 0] S8x256x52x52
  slices_S8x256x54x54_S8x256x52x52_0_0_2_1 : S8x256x54x54.Slices ![0, 0, 2, 1] S8x256x52x52
  slices_S8x256x54x54_S8x256x52x52_0_0_2_2 : S8x256x54x54.Slices ![0, 0, 2, 2] S8x256x52x52
  bcast_S8x256x52x52_S1x8x256x52x52_1_2_3_4 : S8x256x52x52.BroadcastsInDim S1x8x256x52x52 (![1, 2, 3, 4] : Fin 4 → Fin S1x8x256x52x52.rank)
  concatenates_S1x8x256x52x52_S1x8x256x52x52_S1x8x256x52x52_S1x8x256x52x52_S1x8x256x52x52_S1x8x256x52x52_S1x8x256x52x52_S1x8x256x52x52_S1x8x256x52x52_S9x8x256x52x52_d0 : Shape.Concatenates [S1x8x256x52x52, S1x8x256x52x52, S1x8x256x52x52, S1x8x256x52x52, S1x8x256x52x52, S1x8x256x52x52, S1x8x256x52x52, S1x8x256x52x52, S1x8x256x52x52] S9x8x256x52x52 0
  shapeCasts_S9x8x256x52x52_S3x3x8x256x52x52 : S9x8x256x52x52.ShapeCasts S3x3x8x256x52x52
  transposes_S3x3x8x256x52x52_S8x52x52x256x3x3_2_4_5_3_0_1 : S3x3x8x256x52x52.Transposes [2, 4, 5, 3, 0, 1] S8x52x52x256x3x3
  shapeCasts_S8x52x52x256x3x3_S21632x2304 : S8x52x52x256x3x3.ShapeCasts S21632x2304
  bcast_S_S21632x2304 : S_.BroadcastsInDim S21632x2304 (![] : Fin 0 → Fin S21632x2304.rank)
  bcast_S_S512 : S_.BroadcastsInDim S512 (![] : Fin 0 → Fin S512.rank)
  bcast_S512_S1x512_1 : S512.BroadcastsInDim S1x512 (![1] : Fin 1 → Fin S1x512.rank)
  bcast_S1x512_S21632x512_0_1 : S1x512.BroadcastsInDim S21632x512 (![0, 1] : Fin 2 → Fin S21632x512.rank)
  bcast_S_S21632x512 : S_.BroadcastsInDim S21632x512 (![] : Fin 0 → Fin S21632x512.rank)
  shapeCasts_S21632x512_S8x52x52x512 : S21632x512.ShapeCasts S8x52x52x512
  transposes_S8x52x52x512_S8x512x52x52_0_3_1_2 : S8x52x52x512.Transposes [0, 3, 1, 2] S8x512x52x52
  dot_S21632x2304_S2304x512_S21632x512_1_0_0_1_n_n_wf : DotDims.WF S21632x2304 S2304x512 S21632x512 [1] [0] [0] [1] [] []

variable [Facts₀]

def dot_S21632x2304_S2304x512_S21632x512_1_0_0_1_n_n : DotDims S21632x2304 S2304x512 S21632x512 where
  lhsContracting := [1]
  rhsContracting := [0]
  lhsNonContracting := [0]
  rhsNonContracting := [1]
  lhsBatch := []
  rhsBatch := []
  wf := dot_S21632x2304_S2304x512_S21632x512_1_0_0_1_n_n_wf

class Facts : Prop extends Facts₀ where

variable [Facts]
-- ==== Proof.Spec.lean ====
/-
  The convolution both programs compute, written once over the three argument arrays.

  The input is requantised entry by entry, q = clip(round(20·x)), and laid on a 54×54 frame with a ring of zeros
  around each 52×52 image. An output entry (n, f, oy, ox) gathers the 3×3 window of the frame whose upper-left corner is
  (oy, ox), over all 256 channels: the sum over c, y, x of (frame(n, c, oy + y, ox + x) / 2) · w(9c + 3y + x, f); then the
  bias is added eight-fold, the result is halved, rounded and clipped to [-128, 127].
-/
import Idealize.ShloMosaic.PureOps.Ideal
import Idealize.ShloMosaic.PureOps.Ideal.Laws
import Idealize.ShloMosaic.Lib.ValueIdx

noncomputable section

open scoped BigOperators

namespace Cert.Conv

open Idealize.ShloMosaic Idealize.ShloMosaic.ValueIdx

/-- Round to the nearest integer (ties to even), then clip to [-128, 127]. -/
def clipRound (v : EReal) : EReal :=
  min (Ideal.ofBits .f32 0x42FE0000#32) (max (Ideal.ofBits .f32 0xC3000000#32) (Ideal.liftRound Ideal.roundHalfEven v))

/-- The requantisation of one input entry: clip(round(20·v)). -/
def quant (v : EReal) : EReal := clipRound (v * Ideal.ofBits .f32 0x41A00000#32)

/-- The quotient by two. -/
def half (v : EReal) : EReal := Ideal.div v (Ideal.ofBits .f32 0x40000000#32)

/-- The requantised input on its zero frame: entry (py, px) of the 54×54 frame is the image's entry (py - 1, px - 1) when
    that lies in the image, and zero on the ring. -/
def padQ (X : (⟨4, ![8, 256, 52, 52]⟩ : Shape).Idx → EReal) (n : Fin 8) (c : Fin 256) (py px : Fin 54) : EReal :=
  if h : (1 ≤ py.val ∧ py.val ≤ 52) ∧ (1 ≤ px.val ∧ px.val ≤ 52) then
    quant (X (ix4 n c ⟨py.val - 1, by omega⟩ ⟨px.val - 1, by omega⟩))
  else 0

/-- The window sum of output entry (n, oy, ox, f): over the 256 channels and the 3×3 taps. -/
def acc (X : (⟨4, ![8, 256, 52, 52]⟩ : Shape).Idx → EReal) (W : (⟨2, ![2304, 512]⟩ : Shape).Idx → EReal)
    (n : Fin 8) (oy ox : Fin 52) (f : Fin 512) : EReal :=
  ∑ c : Fin 256, ∑ y : Fin 3, ∑ x : Fin 3,
    half (padQ X n c ⟨oy.val + y.val, by omega⟩ ⟨ox.val + x.val, by omega⟩)
      * W (ix2 ⟨c.val * 9 + y.val * 3 + x.val, by omega⟩ f)

/-- The result array, entry (n, f, oy, ox). -/
def G (X : (⟨4, ![8, 256, 52, 52]⟩ : Shape).Idx → EReal) (W : (⟨2, ![2304, 512]⟩ : Shape).Idx → EReal)
    (B : (⟨1, ![512]⟩ : Shape).Idx → EReal) : (⟨4, ![8, 512, 52, 52]⟩ : Shape).Idx → EReal := fun i =>
  clipRound ((acc X W (i 0) (i 2) (i 3) (i 1) + B (ix1 (i 1)) * Ideal.ofBits .f32 0x41000000#32)
    * Ideal.ofBits .f32 0x3F000000#32)

end Cert.Conv

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.RefConv.lean ====
/-
  The reference program read at the extended reals is the specification.

  The reference requantises the input, lays it on a zero frame, cuts the nine 52×52 windows of the frame (one per tap of
  the 3×3 stencil), stacks them, and rearranges the stack into the patch matrix whose row (n, oy, ox) and column
  9c + 3y + x hold frame entry (n, c, oy + y, ox + x). Half of the patch matrix is multiplied by the weights, eight times the
  bias is added, and the result is halved, rounded and clipped. Each stage is read at an index; the sum over the 2304
  columns is regrouped as the sum over channels and taps.
-/
import proofs.«157169_j57483842290268_2_alg».proof.Proof.Gen.ReferenceIdeal.Read
import proofs.«157169_j57483842290268_2_alg».proof.Proof.Spec
import proofs.«157169_j57483842290268_2_alg».proof.Proof.LibTileSums
import Idealize.ShloMosaic.Lib.Pipeline.Value
import Idealize.ShloMosaic.Lib.ValueIdx
import Idealize.ShloMosaic.Lib.ValueIdxRank6
import Idealize.ShloMosaic.Lib.KernelVsHost
import Idealize.ShloMosaic.PureOps.Ideal.Laws

noncomputable section

open scoped BigOperators

namespace Cert.RefConv

open Cert.ReferenceIdeal Cert.ReferenceIdeal.Gen Cert.ReferenceIdeal.Read Idealize.ShloMosaic Idealize.ShloMosaic.ValueIdx

/-- The padding value: the integer zero converted to a float is the extended real zero. -/
theorem padValue_eq (j : S_.Idx) : val_main_call2_v0 (F := Ideal) j = (0 : EReal) := by
  rw [val_main_call2_v0_apply, val_main_c_apply]
  show (((0#32 : BitVec 32).toInt : ℝ) : EReal) = 0
  simp

/-- The requantised input at an index: clip(round(20·x)). -/
theorem v3_apply (X : (⟨S8x256x52x52, .f32⟩ : BufTy).Contents (Elt Ideal)) (i : S8x256x52x52.Idx) :
    val_main_v3 (F := Ideal) X i = Cert.Conv.quant (X i) := by
  rw [val_main_v3_apply, val_main_call1_v4_apply, val_main_call1_v3_apply, val_main_cst_1_apply,
    val_main_call1_v2_apply, val_main_call1_v1_apply, val_main_call1_v0_apply, val_main_cst_0_apply,
    val_main_v2_apply, val_main_v1_apply, val_main_v0_apply, val_main_cst_apply]
  rfl

/-- The padded array at frame position (py, px) is the requantised input on its zero frame. -/
theorem v4_apply (X : (⟨S8x256x52x52, .f32⟩ : BufTy).Contents (Elt Ideal)) (n : Fin 8) (c : Fin 256) (py px : Fin 54) :
    val_main_v4 (F := Ideal) X (ix4 n c py px) = Cert.Conv.padQ X n c py px := by
  unfold val_main_v4 Cert.Conv.padQ
  by_cases h : (1 ≤ py.val ∧ py.val ≤ 52) ∧ (1 ≤ px.val ∧ px.val ≤ 52)
  · rw [dif_pos h]
    refine (pad_apply_of_inside _ _ _ _ _ pads_S8x256x52x52_S8x256x54x54_000_000_110_110 h_S_ (ix4 n c py px)
      (ix4 n c ⟨py.val - 1, by omega⟩ ⟨px.val - 1, by omega⟩) (fun a => match a with
        | ⟨0, _⟩ => by show n.val = 0 + n.val * (0 + 1); omega
        | ⟨1, _⟩ => by show c.val = 0 + c.val * (0 + 1); omega
        | ⟨2, _⟩ => by show py.val = 1 + (py.val - 1) * (0 + 1); omega
        | ⟨3, _⟩ => by show px.val = 1 + (px.val - 1) * (0 + 1); omega)).trans ?_
    exact v3_apply X _
  · rw [dif_neg h]
    by_cases hy : 1 ≤ py.val ∧ py.val ≤ 52
    · have hx : ¬(1 ≤ px.val ∧ px.val ≤ 52) := fun hx => h ⟨hy, hx⟩
      refine (pad_apply_of_not_inside _ _ _ _ _ pads_S8x256x52x52_S8x256x54x54_000_000_110_110 h_S_ (ix4 n c py px) (3 : Fin 4)
        (by show ¬(1 ≤ px.val ∧ (px.val - 1) % (0 + 1) = 0 ∧ (px.val - 1) / (0 + 1) < 52); omega)).trans ?_
      exact padValue_eq _
    · refine (pad_apply_of_not_inside _ _ _ _ _ pads_S8x256x52x52_S8x256x54x54_000_000_110_110 h_S_ (ix4 n c py px) (2 : Fin 4)
        (by show ¬(1 ≤ py.val ∧ (py.val - 1) % (0 + 1) = 0 ∧ (py.val - 1) / (0 + 1) < 52); omega)).trans ?_
      exact padValue_eq _

/-- Piece 0 of the stack: the window of the padded array at offset (0, 0). -/
theorem piece0_apply (X : (⟨S8x256x52x52, .f32⟩ : BufTy).Contents (Elt Ideal)) (n : Fin 8) (c : Fin 256) (oy ox : Fin 52) :
    val_main_v23 (F := Ideal) X (ix5 (⟨0, by omega⟩ : Fin 9) n c oy ox)
      = val_main_v4 (F := Ideal) X (ix4 n c (⟨oy.val + 0, by omega⟩ : Fin 54) (⟨ox.val + 0, by omega⟩ : Fin 54)) := by
  unfold val_main_v23
  refine (concatenate_apply_piece (t := S9x8x256x52x52) 0 _ _ (ix5 (⟨0, by omega⟩ : Fin 9) n c oy ox) 0 ?_
    S1x8x256x52x52 (val_main_v14 (F := Ideal) X) ?_ rfl 0 ?_ (ix5 (⟨0, by omega⟩ : Fin 1) n c oy ox) ?_ ?_).trans ?_
  · show 0 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v14_apply, val_main_v5_apply]
  refine congrArg _ (funext fun a => Fin.ext ?_)
  match a with
  | ⟨0, _⟩ => rfl
  | ⟨1, _⟩ => rfl
  | ⟨2, _⟩ => show oy.val = oy.val + 0; omega
  | ⟨3, _⟩ => show ox.val = ox.val + 0; omega

/-- Piece 1 of the stack: the window of the padded array at offset (0, 1). -/
theorem piece1_apply (X : (⟨S8x256x52x52, .f32⟩ : BufTy).Contents (Elt Ideal)) (n : Fin 8) (c : Fin 256) (oy ox : Fin 52) :
    val_main_v23 (F := Ideal) X (ix5 (⟨1, by omega⟩ : Fin 9) n c oy ox)
      = val_main_v4 (F := Ideal) X (ix4 n c (⟨oy.val + 0, by omega⟩ : Fin 54) (⟨ox.val + 1, by omega⟩ : Fin 54)) := by
  unfold val_main_v23
  refine (concatenate_apply_piece (t := S9x8x256x52x52) 0 _ _ (ix5 (⟨1, by omega⟩ : Fin 9) n c oy ox) 1 ?_
    S1x8x256x52x52 (val_main_v15 (F := Ideal) X) ?_ rfl 1 ?_ (ix5 (⟨0, by omega⟩ : Fin 1) n c oy ox) ?_ ?_).trans ?_
  · show 1 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v15_apply, val_main_v6_apply]
  refine congrArg _ (funext fun a => Fin.ext ?_)
  match a with
  | ⟨0, _⟩ => rfl
  | ⟨1, _⟩ => rfl
  | ⟨2, _⟩ => show oy.val = oy.val + 0; omega
  | ⟨3, _⟩ => show 1 + ox.val = ox.val + 1; omega

/-- Piece 2 of the stack: the window of the padded array at offset (0, 2). -/
theorem piece2_apply (X : (⟨S8x256x52x52, .f32⟩ : BufTy).Contents (Elt Ideal)) (n : Fin 8) (c : Fin 256) (oy ox : Fin 52) :
    val_main_v23 (F := Ideal) X (ix5 (⟨2, by omega⟩ : Fin 9) n c oy ox)
      = val_main_v4 (F := Ideal) X (ix4 n c (⟨oy.val + 0, by omega⟩ : Fin 54) (⟨ox.val + 2, by omega⟩ : Fin 54)) := by
  unfold val_main_v23
  refine (concatenate_apply_piece (t := S9x8x256x52x52) 0 _ _ (ix5 (⟨2, by omega⟩ : Fin 9) n c oy ox) 2 ?_
    S1x8x256x52x52 (val_main_v16 (F := Ideal) X) ?_ rfl 2 ?_ (ix5 (⟨0, by omega⟩ : Fin 1) n c oy ox) ?_ ?_).trans ?_
  · show 2 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v16_apply, val_main_v7_apply]
  refine congrArg _ (funext fun a => Fin.ext ?_)
  match a with
  | ⟨0, _⟩ => rfl
  | ⟨1, _⟩ => rfl
  | ⟨2, _⟩ => show oy.val = oy.val + 0; omega
  | ⟨3, _⟩ => show 2 + ox.val = ox.val + 2; omega

/-- Piece 3 of the stack: the window of the padded array at offset (1, 0). -/
theorem piece3_apply (X : (⟨S8x256x52x52, .f32⟩ : BufTy).Contents (Elt Ideal)) (n : Fin 8) (c : Fin 256) (oy ox : Fin 52) :
    val_main_v23 (F := Ideal) X (ix5 (⟨3, by omega⟩ : Fin 9) n c oy ox)
      = val_main_v4 (F := Ideal) X (ix4 n c (⟨oy.val + 1, by omega⟩ : Fin 54) (⟨ox.val + 0, by omega⟩ : Fin 54)) := by
  unfold val_main_v23
  refine (concatenate_apply_piece (t := S9x8x256x52x52) 0 _ _ (ix5 (⟨3, by omega⟩ : Fin 9) n c oy ox) 3 ?_
    S1x8x256x52x52 (val_main_v17 (F := Ideal) X) ?_ rfl 3 ?_ (ix5 (⟨0, by omega⟩ : Fin 1) n c oy ox) ?_ ?_).trans ?_
  · show 3 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v17_apply, val_main_v8_apply]
  refine congrArg _ (funext fun a => Fin.ext ?_)
  match a with
  | ⟨0, _⟩ => rfl
  | ⟨1, _⟩ => rfl
  | ⟨2, _⟩ => show 1 + oy.val = oy.val + 1; omega
  | ⟨3, _⟩ => show ox.val = ox.val + 0; omega

/-- Piece 4 of the stack: the window of the padded array at offset (1, 1). -/
theorem piece4_apply (X : (⟨S8x256x52x52, .f32⟩ : BufTy).Contents (Elt Ideal)) (n : Fin 8) (c : Fin 256) (oy ox : Fin 52) :
    val_main_v23 (F := Ideal) X (ix5 (⟨4, by omega⟩ : Fin 9) n c oy ox)
      = val_main_v4 (F := Ideal) X (ix4 n c (⟨oy.val + 1, by omega⟩ : Fin 54) (⟨ox.val + 1, by omega⟩ : Fin 54)) := by
  unfold val_main_v23
  refine (concatenate_apply_piece (t := S9x8x256x52x52) 0 _ _ (ix5 (⟨4, by omega⟩ : Fin 9) n c oy ox) 4 ?_
    S1x8x256x52x52 (val_main_v18 (F := Ideal) X) ?_ rfl 4 ?_ (ix5 (⟨0, by omega⟩ : Fin 1) n c oy ox) ?_ ?_).trans ?_
  · show 4 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v18_apply, val_main_v9_apply]
  refine congrArg _ (funext fun a => Fin.ext ?_)
  match a with
  | ⟨0, _⟩ => rfl
  | ⟨1, _⟩ => rfl
  | ⟨2, _⟩ => show 1 + oy.val = oy.val + 1; omega
  | ⟨3, _⟩ => show 1 + ox.val = ox.val + 1; omega

/-- Piece 5 of the stack: the window of the padded array at offset (1, 2). -/
theorem piece5_apply (X : (⟨S8x256x52x52, .f32⟩ : BufTy).Contents (Elt Ideal)) (n : Fin 8) (c : Fin 256) (oy ox : Fin 52) :
    val_main_v23 (F := Ideal) X (ix5 (⟨5, by omega⟩ : Fin 9) n c oy ox)
      = val_main_v4 (F := Ideal) X (ix4 n c (⟨oy.val + 1, by omega⟩ : Fin 54) (⟨ox.val + 2, by omega⟩ : Fin 54)) := by
  unfold val_main_v23
  refine (concatenate_apply_piece (t := S9x8x256x52x52) 0 _ _ (ix5 (⟨5, by omega⟩ : Fin 9) n c oy ox) 5 ?_
    S1x8x256x52x52 (val_main_v19 (F := Ideal) X) ?_ rfl 5 ?_ (ix5 (⟨0, by omega⟩ : Fin 1) n c oy ox) ?_ ?_).trans ?_
  · show 5 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v19_apply, val_main_v10_apply]
  refine congrArg _ (funext fun a => Fin.ext ?_)
  match a with
  | ⟨0, _⟩ => rfl
  | ⟨1, _⟩ => rfl
  | ⟨2, _⟩ => show 1 + oy.val = oy.val + 1; omega
  | ⟨3, _⟩ => show 2 + ox.val = ox.val + 2; omega

/-- Piece 6 of the stack: the window of the padded array at offset (2, 0). -/
theorem piece6_apply (X : (⟨S8x256x52x52, .f32⟩ : BufTy).Contents (Elt Ideal)) (n : Fin 8) (c : Fin 256) (oy ox : Fin 52) :
    val_main_v23 (F := Ideal) X (ix5 (⟨6, by omega⟩ : Fin 9) n c oy ox)
      = val_main_v4 (F := Ideal) X (ix4 n c (⟨oy.val + 2, by omega⟩ : Fin 54) (⟨ox.val + 0, by omega⟩ : Fin 54)) := by
  unfold val_main_v23
  refine (concatenate_apply_piece (t := S9x8x256x52x52) 0 _ _ (ix5 (⟨6, by omega⟩ : Fin 9) n c oy ox) 6 ?_
    S1x8x256x52x52 (val_main_v20 (F := Ideal) X) ?_ rfl 6 ?_ (ix5 (⟨0, by omega⟩ : Fin 1) n c oy ox) ?_ ?_).trans ?_
  · show 6 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v20_apply, val_main_v11_apply]
  refine congrArg _ (funext fun a => Fin.ext ?_)
  match a with
  | ⟨0, _⟩ => rfl
  | ⟨1, _⟩ => rfl
  | ⟨2, _⟩ => show 2 + oy.val = oy.val + 2; omega
  | ⟨3, _⟩ => show ox.val = ox.val + 0; omega

/-- Piece 7 of the stack: the window of the padded array at offset (2, 1). -/
theorem piece7_apply (X : (⟨S8x256x52x52, .f32⟩ : BufTy).Contents (Elt Ideal)) (n : Fin 8) (c : Fin 256) (oy ox : Fin 52) :
    val_main_v23 (F := Ideal) X (ix5 (⟨7, by omega⟩ : Fin 9) n c oy ox)
      = val_main_v4 (F := Ideal) X (ix4 n c (⟨oy.val + 2, by omega⟩ : Fin 54) (⟨ox.val + 1, by omega⟩ : Fin 54)) := by
  unfold val_main_v23
  refine (concatenate_apply_piece (t := S9x8x256x52x52) 0 _ _ (ix5 (⟨7, by omega⟩ : Fin 9) n c oy ox) 7 ?_
    S1x8x256x52x52 (val_main_v21 (F := Ideal) X) ?_ rfl 7 ?_ (ix5 (⟨0, by omega⟩ : Fin 1) n c oy ox) ?_ ?_).trans ?_
  · show 7 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v21_apply, val_main_v12_apply]
  refine congrArg _ (funext fun a => Fin.ext ?_)
  match a with
  | ⟨0, _⟩ => rfl
  | ⟨1, _⟩ => rfl
  | ⟨2, _⟩ => show 2 + oy.val = oy.val + 2; omega
  | ⟨3, _⟩ => show 1 + ox.val = ox.val + 1; omega

/-- Piece 8 of the stack: the window of the padded array at offset (2, 2). -/
theorem piece8_apply (X : (⟨S8x256x52x52, .f32⟩ : BufTy).Contents (Elt Ideal)) (n : Fin 8) (c : Fin 256) (oy ox : Fin 52) :
    val_main_v23 (F := Ideal) X (ix5 (⟨8, by omega⟩ : Fin 9) n c oy ox)
      = val_main_v4 (F := Ideal) X (ix4 n c (⟨oy.val + 2, by omega⟩ : Fin 54) (⟨ox.val + 2, by omega⟩ : Fin 54)) := by
  unfold val_main_v23
  refine (concatenate_apply_piece (t := S9x8x256x52x52) 0 _ _ (ix5 (⟨8, by omega⟩ : Fin 9) n c oy ox) 8 ?_
    S1x8x256x52x52 (val_main_v22 (F := Ideal) X) ?_ rfl 8 ?_ (ix5 (⟨0, by omega⟩ : Fin 1) n c oy ox) ?_ ?_).trans ?_
  · show 8 < 9; omega
  · rfl
  · rfl
  · intro b hb
    match b with
    | ⟨0, _⟩ => exact absurd rfl hb
    | ⟨1, _⟩ => rfl
    | ⟨2, _⟩ => rfl
    | ⟨3, _⟩ => rfl
    | ⟨4, _⟩ => rfl
  · rfl
  rw [val_main_v22_apply, val_main_v13_apply]
  refine congrArg _ (funext fun a => Fin.ext ?_)
  match a with
  | ⟨0, _⟩ => rfl
  | ⟨1, _⟩ => rfl
  | ⟨2, _⟩ => show 2 + oy.val = oy.val + 2; omega
  | ⟨3, _⟩ => show 2 + ox.val = ox.val + 2; omega

/-- Any tap (y, x) of the stack: the window of the padded array at offset (y, x). -/
theorem v23_apply (X : (⟨S8x256x52x52, .f32⟩ : BufTy).Contents (Elt Ideal)) (y x : Fin 3) (n : Fin 8) (c : Fin 256) (oy ox : Fin 52) :
    val_main_v23 (F := Ideal) X (ix5 (⟨y.val * 3 + x.val, by omega⟩ : Fin 9) n c oy ox)
      = val_main_v4 (F := Ideal) X (ix4 n c (⟨oy.val + y.val, by omega⟩ : Fin 54) (⟨ox.val + x.val, by omega⟩ : Fin 54)) :=
  match y, x with
  | ⟨0, _⟩, ⟨0, _⟩ => piece0_apply X n c oy ox
  | ⟨0, _⟩, ⟨1, _⟩ => piece1_apply X n c oy ox
  | ⟨0, _⟩, ⟨2, _⟩ => piece2_apply X n c oy ox
  | ⟨1, _⟩, ⟨0, _⟩ => piece3_apply X n c oy ox
  | ⟨1, _⟩, ⟨1, _⟩ => piece4_apply X n c oy ox
  | ⟨1, _⟩, ⟨2, _⟩ => piece5_apply X n c oy ox
  | ⟨2, _⟩, ⟨0, _⟩ => piece6_apply X n c oy ox
  | ⟨2, _⟩, ⟨1, _⟩ => piece7_apply X n c oy ox
  | ⟨2, _⟩, ⟨2, _⟩ => piece8_apply X n c oy ox

/-- The stack split into a 3×3 grid of taps: entry (y, x, n, c, oy, ox) is entry (3y + x, n, c, oy, ox) of the stack. -/
theorem v24_apply (X : (⟨S8x256x52x52, .f32⟩ : BufTy).Contents (Elt Ideal)) (y x : Fin 3) (n : Fin 8) (c : Fin 256) (oy ox : Fin 52) :
    val_main_v24 (F := Ideal) X (ix6 y x n c oy ox)
      = val_main_v23 (F := Ideal) X (ix5 (⟨y.val * 3 + x.val, by omega⟩ : Fin 9) n c oy ox) := by
  unfold val_main_v24
  refine shapeCast_apply _ shapeCasts_S9x8x256x52x52_S3x3x8x256x52x52 (ix6 y x n c oy ox)
    (ix5 (⟨y.val * 3 + x.val, by omega⟩ : Fin 9) n c oy ox) ?_
  rewrite [Shape.rowMajor_val_five, Shape.rowMajor_val_six]
  show ((((y.val * 3 + x.val) * 8 + n.val) * 256 + c.val) * 52 + oy.val) * 52 + ox.val
    = ((((y.val * 3 + x.val) * 8 + n.val) * 256 + c.val) * 52 + oy.val) * 52 + ox.val
  rfl

/-- The patch matrix: row (n, oy, ox), column (c, y, x) is the padded array at (n, c, oy + y, ox + x). -/
theorem v26_apply (X : (⟨S8x256x52x52, .f32⟩ : BufTy).Contents (Elt Ideal)) (n : Fin 8) (oy ox : Fin 52) (c : Fin 256) (y x : Fin 3) :
    val_main_v26 (F := Ideal) X (ix2 (⟨(n.val * 52 + oy.val) * 52 + ox.val, by omega⟩ : Fin 21632) (⟨c.val * 9 + y.val * 3 + x.val, by omega⟩ : Fin 2304))
      = val_main_v4 (F := Ideal) X (ix4 n c (⟨oy.val + y.val, by omega⟩ : Fin 54) (⟨ox.val + x.val, by omega⟩ : Fin 54)) := by
  unfold val_main_v26
  refine (shapeCast_apply _ shapeCasts_S8x52x52x256x3x3_S21632x2304
    (ix2 (⟨(n.val * 52 + oy.val) * 52 + ox.val, by omega⟩ : Fin 21632) (⟨c.val * 9 + y.val * 3 + x.val, by omega⟩ : Fin 2304))
    (ix6 n oy ox c y x) ?_).trans ?_
  · rewrite [Shape.rowMajor_val_two, Shape.rowMajor_val_six]
    show ((((n.val * 52 + oy.val) * 52 + ox.val) * 256 + c.val) * 3 + y.val) * 3 + x.val
      = ((n.val * 52 + oy.val) * 52 + ox.val) * 2304 + (c.val * 9 + y.val * 3 + x.val)
    omega
  · rw [val_main_v25_apply]
    have e : idx_main_v25 (ix6 n oy ox c y x) = ix6 y x n c oy ox :=
      funext fun a => Fin.ext (by
        match a with
        | ⟨0, _⟩ => rfl
        | ⟨1, _⟩ => rfl
        | ⟨2, _⟩ => rfl
        | ⟨3, _⟩ => rfl
        | ⟨4, _⟩ => rfl
        | ⟨5, _⟩ => rfl)
    rw [e, v24_apply, v23_apply]

/-- A sum over the 2304 columns of the patch matrix, regrouped by channel and tap: column 9c + 3y + x. -/
theorem sum_taps {M : Type*} [AddCommMonoid M] (F : Fin 2304 → M) :
    ∑ k : Fin 2304, F k
      = ∑ c : Fin 256, ∑ y : Fin 3, ∑ x : Fin 3, F (⟨c.val * 9 + y.val * 3 + x.val, by omega⟩ : Fin 2304) := by
  let g : ℕ → M := fun k => if h : k < 2304 then F ⟨k, h⟩ else 0
  have h1 : ∑ k : Fin 2304, F k = ∑ k : Fin (256 * 9), g k.val :=
    Finset.sum_congr rfl fun k _ => by
      show F k = (if h : k.val < 2304 then F ⟨k.val, h⟩ else 0)
      rw [dif_pos k.isLt]
  rw [h1, Cert.LibTileSums.sum_blocks 256 9 g]
  refine Finset.sum_congr rfl fun c _ => ?_
  refine (Cert.LibTileSums.sum_blocks 3 3 (fun r => g (9 * c.val + r))).trans ?_
  refine Finset.sum_congr rfl fun y _ => Finset.sum_congr rfl fun x _ => ?_
  have hlt : 9 * c.val + (3 * y.val + x.val) < 2304 := by omega
  show (if h : 9 * c.val + (3 * y.val + x.val) < 2304 then F ⟨9 * c.val + (3 * y.val + x.val), h⟩ else 0) = _
  rw [dif_pos hlt]
  exact congrArg F (Fin.ext (by show 9 * c.val + (3 * y.val + x.val) = c.val * 9 + y.val * 3 + x.val; omega))

/-- Half of the patch-matrix entry at row (n, oy, ox), column (c, y, x). -/
theorem v28_apply (X : (⟨S8x256x52x52, .f32⟩ : BufTy).Contents (Elt Ideal)) (n : Fin 8) (oy ox : Fin 52) (c : Fin 256) (y x : Fin 3) :
    val_main_v28 (F := Ideal) X (ix2 (⟨(n.val * 52 + oy.val) * 52 + ox.val, by omega⟩ : Fin 21632) (⟨c.val * 9 + y.val * 3 + x.val, by omega⟩ : Fin 2304))
      = Cert.Conv.half (Cert.Conv.padQ X n c (⟨oy.val + y.val, by omega⟩ : Fin 54) (⟨ox.val + x.val, by omega⟩ : Fin 54)) := by
  rw [val_main_v28_apply, val_main_v27_apply, val_main_cst_2_apply, v26_apply, v4_apply]
  rfl

/-- The matrix product at row (n, oy, ox), column f is the window sum. -/
theorem v29_apply (X : (⟨S8x256x52x52, .f32⟩ : BufTy).Contents (Elt Ideal)) (W : (⟨S2304x512, .f32⟩ : BufTy).Contents (Elt Ideal))
    (n : Fin 8) (oy ox : Fin 52) (f : Fin 512) :
    val_main_v29 (F := Ideal) X W (ix2 (⟨(n.val * 52 + oy.val) * 52 + ox.val, by omega⟩ : Fin 21632) f) = Cert.Conv.acc X W n oy ox f := by
  rw [val_main_v29_apply, sum_taps]
  unfold Cert.Conv.acc
  refine Finset.sum_congr rfl fun c _ => Finset.sum_congr rfl fun y _ => Finset.sum_congr rfl fun x _ => ?_
  have el : lidx_main_v29 (ix2 (⟨(n.val * 52 + oy.val) * 52 + ox.val, by omega⟩ : Fin 21632) f) (⟨c.val * 9 + y.val * 3 + x.val, by omega⟩ : Fin 2304)
      = ix2 (⟨(n.val * 52 + oy.val) * 52 + ox.val, by omega⟩ : Fin 21632) (⟨c.val * 9 + y.val * 3 + x.val, by omega⟩ : Fin 2304) :=
    funext fun a => Fin.ext (by
      match a with
      | ⟨0, _⟩ => rfl
      | ⟨1, _⟩ => rfl)
  have er : ridx_main_v29 (ix2 (⟨(n.val * 52 + oy.val) * 52 + ox.val, by omega⟩ : Fin 21632) f) (⟨c.val * 9 + y.val * 3 + x.val, by omega⟩ : Fin 2304)
      = ix2 (⟨c.val * 9 + y.val * 3 + x.val, by omega⟩ : Fin 2304) f :=
    funext fun a => Fin.ext (by
      match a with
      | ⟨0, _⟩ => rfl
      | ⟨1, _⟩ => rfl)
  rw [el, er, v28_apply]

/-- The bias row: eight times the bias of column f, whatever the row. -/
theorem v33_apply (B : (⟨S512, .f32⟩ : BufTy).Contents (Elt Ideal)) (r : Fin 21632) (f : Fin 512) :
    val_main_v33 (F := Ideal) B (ix2 r f) = B (ix1 f) * Ideal.ofBits .f32 0x41000000#32 := by
  rw [val_main_v33_apply, val_main_v32_apply, val_main_v31_apply, val_main_v30_apply, val_main_cst_3_apply]
  have e : idx_main_v32 (idx_main_v33 (ix2 r f)) = ix1 f :=
    funext fun a => Fin.ext (by
      match a with
      | ⟨0, _⟩ => rfl)
  rw [e]
  rfl

/-- The reference program's result is the specification, entry by entry. -/
theorem ref_eq (X : (⟨S8x256x52x52, .f32⟩ : BufTy).Contents (Elt Ideal)) (W : (⟨S2304x512, .f32⟩ : BufTy).Contents (Elt Ideal))
    (B : (⟨S512, .f32⟩ : BufTy).Contents (Elt Ideal)) :
    val_main_v40 (F := Ideal) X W B = Cert.Conv.G X W B := by
  funext i
  obtain ⟨n, f, oy, ox, rfl⟩ : ∃ (n : Fin 8) (f : Fin 512) (oy ox : Fin 52), i = ix4 n f oy ox :=
    ⟨i 0, i 1, i 2, i 3, eq_ix4 i⟩
  have e : idx_main_v39 (idx_main_v40 (ix4 n f oy ox)) = ix2 (⟨(n.val * 52 + oy.val) * 52 + ox.val, by omega⟩ : Fin 21632) f :=
    funext fun a => Fin.ext (by
      match a with
      | ⟨0, _⟩ =>
        show (((n.val * 52 + oy.val) * 52 + ox.val) * 512 + f.val) / 512 = (n.val * 52 + oy.val) * 52 + ox.val
        omega
      | ⟨1, _⟩ =>
        show (((n.val * 52 + oy.val) * 52 + ox.val) * 512 + f.val) % 512 = f.val
        omega)
  rw [val_main_v40_apply, val_main_v39_apply, e, val_main_v38_apply, val_main_call4_v4_apply, val_main_call4_v3_apply,
    val_main_cst_6_apply, val_main_call4_v2_apply, val_main_call4_v1_apply, val_main_call4_v0_apply, val_main_cst_5_apply,
    val_main_v37_apply, val_main_v36_apply, val_main_v35_apply, val_main_cst_4_apply, val_main_v34_apply, v29_apply, v33_apply]
  rfl

end Cert.RefConv

end
-- ==== Proof.KerBody.lean ====
/-
  What one grid point's body leaves in its output block, as one term of the four input blocks.

  The body zeroes the block, then for each of the nine taps (dy, dx) of the 3×3 window adds two products to it — the tap's
  52×52×256 slab of the padded image, flattened to 2704×256, times the tap's 256×512 slab of the first and of the second
  weight array — each time reading the block back and storing the sum; it ends by adding eight times the bias row, halving,
  rounding and clipping. Every store writes the whole block, so each read-back sees exactly the previous store, and the block
  ends at the last store's value: a chain of eighteen accumulation steps under the final pointwise map.
-/
import proofs.«157169_j57483842290268_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Idealize.ShloMosaic.View

variable {Val : EltTy → Type} {S : Shape} {e : EltTy}

/-- A load of the whole buffer, after a list of stores whose last one wrote the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (fun y => ⟨_, List.mem_cons_self, mem_set_unit_zero h inb y⟩),
    canon_cons_unit_zero h, ld_unit_zero h]

end Idealize.ShloMosaic.View

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl

/-! ## One accumulation step, however the printed text groups its operations

Each of the eighteen steps is the same function of (tap slab, accumulator block, weight slab): flatten the slab,
multiply, add to the flattened accumulator, restore the leading unit axis. The printed text cuts some steps across
two or three named values; all of them unfold to the one step. -/

theorem step6 (a : Vec F S1x52x52x256 .bf16) (b : Vec F S1x2704x512 .f32) (w : Vec F S1x256x512 .bf16) : k0_pay6 a b w = k0_pay5 a b w := rfl
theorem step8 (a : Vec F S1x52x52x256 .bf16) (b : Vec F S1x2704x512 .f32) (w : Vec F S1x256x512 .bf16) : k0_pay8 a b w = k0_pay5 a b w := rfl
theorem step9 (a : Vec F S1x52x52x256 .bf16) (b : Vec F S1x2704x512 .f32) (w : Vec F S1x256x512 .bf16) : k0_pay9 a b w = k0_pay5 a b w := rfl
theorem step12 (a : Vec F S1x52x52x256 .bf16) (b : Vec F S1x2704x512 .f32) (w : Vec F S1x256x512 .bf16) : k0_pay12 (k0_pay10 a) (k0_pay11 b) w = k0_pay5 a b w := rfl
theorem step13 (a : Vec F S1x52x52x256 .bf16) (b : Vec F S1x2704x512 .f32) (w : Vec F S1x256x512 .bf16) : k0_pay13 (k0_pay10 a) b w = k0_pay5 a b w := rfl
theorem step15 (a : Vec F S1x52x52x256 .bf16) (b : Vec F S1x2704x512 .f32) (w : Vec F S1x256x512 .bf16) : k0_pay15 a b w = k0_pay5 a b w := rfl
theorem step16 (a : Vec F S1x52x52x256 .bf16) (b : Vec F S1x2704x512 .f32) (w : Vec F S1x256x512 .bf16) : k0_pay16 (k0_pay14 a) b w = k0_pay5 a b w := rfl
theorem step18 (a : Vec F S1x52x52x256 .bf16) (b : Vec F S1x2704x512 .f32) (w : Vec F S1x256x512 .bf16) : k0_pay18 a b w = k0_pay5 a b w := rfl
theorem step20 (a : Vec F S1x52x52x256 .bf16) (b : Vec F S1x2704x512 .f32) (w : Vec F S1x256x512 .bf16) : k0_pay20 (k0_pay19 a b w) = k0_pay5 a b w := rfl
theorem step22 (a : Vec F S1x52x52x256 .bf16) (b : Vec F S1x2704x512 .f32) (w : Vec F S1x256x512 .bf16) : k0_pay22 a b w = k0_pay5 a b w := rfl
theorem step23 (a : Vec F S1x52x52x256 .bf16) (b : Vec F S1x2704x512 .f32) (w : Vec F S1x256x512 .bf16) : k0_pay23 a b w = k0_pay5 a b w := rfl
theorem step25 (a : Vec F S1x52x52x256 .bf16) (b : Vec F S1x2704x512 .f32) (w : Vec F S1x256x512 .bf16) : k0_pay25 (k0_pay24 a) b w = k0_pay5 a b w := rfl
theorem step26 (a : Vec F S1x52x52x256 .bf16) (b : Vec F S1x2704x512 .f32) (w : Vec F S1x256x512 .bf16) : k0_pay26 (k0_pay24 a) b w = k0_pay5 a b w := rfl
theorem step29 (a : Vec F S1x52x52x256 .bf16) (b : Vec F S1x2704x512 .f32) (w : Vec F S1x256x512 .bf16) : k0_pay29 (k0_pay28 a b w) = k0_pay5 a b w := rfl
theorem step30 (a : Vec F S1x52x52x256 .bf16) (b : Vec F S1x2704x512 .f32) (w : Vec F S1x256x512 .bf16) : k0_pay30 (k0_pay27 a) b w = k0_pay5 a b w := rfl
theorem step32 (a : Vec F S1x52x52x256 .bf16) (b : Vec F S1x2704x512 .f32) (w : Vec F S1x256x512 .bf16) : k0_pay32 a b w = k0_pay5 a b w := rfl
theorem step1 (a : Vec F S1x52x52x256 .bf16) (b : Vec F S1x2704x512 .f32) (w : Vec F S1x256x512 .bf16) : k0_pay1 (k0_pay31 a) (k0_pay33 b) w = k0_pay5 a b w := rfl

/-! ## The chain -/

/-- The accumulator after tap 0 (window offset (0, 0)): both products of the tap added. -/
def acc1 (x0 : Vec F S1x54x54x256 .bf16) (x1 x2 : Vec F S9x256x512 .bf16) : FVec F S1x2704x512 .f32 :=
  k0_pay5 (View.ld x0 (Rect.unit (s := S1x54x54x256) ![0, 0, 0, 0] S1x52x52x256.size inb_S1x54x54x256_S1x52x52x256_0_0_0_0))
    (k0_pay5 (View.ld x0 (Rect.unit (s := S1x54x54x256) ![0, 0, 0, 0] S1x52x52x256.size inb_S1x54x54x256_S1x52x52x256_0_0_0_0)) (k0_pay3 (F := F)) (View.ld x1 (Rect.unit (s := S9x256x512) ![0, 0, 0] S1x256x512.size inb_S9x256x512_S1x256x512_0_0_0))) (View.ld x2 (Rect.unit (s := S9x256x512) ![0, 0, 0] S1x256x512.size inb_S9x256x512_S1x256x512_0_0_0))

/-- The accumulator after tap 1 (window offset (0, 1)): both products of the tap added. -/
def acc2 (x0 : Vec F S1x54x54x256 .bf16) (x1 x2 : Vec F S9x256x512 .bf16) : FVec F S1x2704x512 .f32 :=
  k0_pay5 (View.ld x0 (Rect.unit (s := S1x54x54x256) ![0, 0, 1, 0] S1x52x52x256.size inb_S1x54x54x256_S1x52x52x256_0_0_1_0))
    (k0_pay5 (View.ld x0 (Rect.unit (s := S1x54x54x256) ![0, 0, 1, 0] S1x52x52x256.size inb_S1x54x54x256_S1x52x52x256_0_0_1_0)) (acc1 x0 x1 x2) (View.ld x1 (Rect.unit (s := S9x256x512) ![1, 0, 0] S1x256x512.size inb_S9x256x512_S1x256x512_1_0_0))) (View.ld x2 (Rect.unit (s := S9x256x512) ![1, 0, 0] S1x256x512.size inb_S9x256x512_S1x256x512_1_0_0))

/-- The accumulator after tap 2 (window offset (0, 2)): both products of the tap added. -/
def acc3 (x0 : Vec F S1x54x54x256 .bf16) (x1 x2 : Vec F S9x256x512 .bf16) : FVec F S1x2704x512 .f32 :=
  k0_pay5 (View.ld x0 (Rect.unit (s := S1x54x54x256) ![0, 0, 2, 0] S1x52x52x256.size inb_S1x54x54x256_S1x52x52x256_0_0_2_0))
    (k0_pay5 (View.ld x0 (Rect.unit (s := S1x54x54x256) ![0, 0, 2, 0] S1x52x52x256.size inb_S1x54x54x256_S1x52x52x256_0_0_2_0)) (acc2 x0 x1 x2) (View.ld x1 (Rect.unit (s := S9x256x512) ![2, 0, 0] S1x256x512.size inb_S9x256x512_S1x256x512_2_0_0))) (View.ld x2 (Rect.unit (s := S9x256x512) ![2, 0, 0] S1x256x512.size inb_S9x256x512_S1x256x512_2_0_0))

/-- The accumulator after tap 3 (window offset (1, 0)): both products of the tap added. -/
def acc4 (x0 : Vec F S1x54x54x256 .bf16) (x1 x2 : Vec F S9x256x512 .bf16) : FVec F S1x2704x512 .f32 :=
  k0_pay5 (View.ld x0 (Rect.unit (s := S1x54x54x256) ![0, 1, 0, 0] S1x52x52x256.size inb_S1x54x54x256_S1x52x52x256_0_1_0_0))
    (k0_pay5 (View.ld x0 (Rect.unit (s := S1x54x54x256) ![0, 1, 0, 0] S1x52x52x256.size inb_S1x54x54x256_S1x52x52x256_0_1_0_0)) (acc3 x0 x1 x2) (View.ld x1 (Rect.unit (s := S9x256x512) ![3, 0, 0] S1x256x512.size inb_S9x256x512_S1x256x512_3_0_0))) (View.ld x2 (Rect.unit (s := S9x256x512) ![3, 0, 0] S1x256x512.size inb_S9x256x512_S1x256x512_3_0_0))

/-- The accumulator after tap 4 (window offset (1, 1)): both products of the tap added. -/
def acc5 (x0 : Vec F S1x54x54x256 .bf16) (x1 x2 : Vec F S9x256x512 .bf16) : FVec F S1x2704x512 .f32 :=
  k0_pay5 (View.ld x0 (Rect.unit (s := S1x54x54x256) ![0, 1, 1, 0] S1x52x52x256.size inb_S1x54x54x256_S1x52x52x256_0_1_1_0))
    (k0_pay5 (View.ld x0 (Rect.unit (s := S1x54x54x256) ![0, 1, 1, 0] S1x52x52x256.size inb_S1x54x54x256_S1x52x52x256_0_1_1_0)) (acc4 x0 x1 x2) (View.ld x1 (Rect.unit (s := S9x256x512) ![4, 0, 0] S1x256x512.size inb_S9x256x512_S1x256x512_4_0_0))) (View.ld x2 (Rect.unit (s := S9x256x512) ![4, 0, 0] S1x256x512.size inb_S9x256x512_S1x256x512_4_0_0))

/-- The accumulator after tap 5 (window offset (1, 2)): both products of the tap added. -/
def acc6 (x0 : Vec F S1x54x54x256 .bf16) (x1 x2 : Vec F S9x256x512 .bf16) : FVec F S1x2704x512 .f32 :=
  k0_pay5 (View.ld x0 (Rect.unit (s := S1x54x54x256) ![0, 1, 2, 0] S1x52x52x256.size inb_S1x54x54x256_S1x52x52x256_0_1_2_0))
    (k0_pay5 (View.ld x0 (Rect.unit (s := S1x54x54x256) ![0, 1, 2, 0] S1x52x52x256.size inb_S1x54x54x256_S1x52x52x256_0_1_2_0)) (acc5 x0 x1 x2) (View.ld x1 (Rect.unit (s := S9x256x512) ![5, 0, 0] S1x256x512.size inb_S9x256x512_S1x256x512_5_0_0))) (View.ld x2 (Rect.unit (s := S9x256x512) ![5, 0, 0] S1x256x512.size inb_S9x256x512_S1x256x512_5_0_0))

/-- The accumulator after tap 6 (window offset (2, 0)): both products of the tap added. -/
def acc7 (x0 : Vec F S1x54x54x256 .bf16) (x1 x2 : Vec F S9x256x512 .bf16) : FVec F S1x2704x512 .f32 :=
  k0_pay5 (View.ld x0 (Rect.unit (s := S1x54x54x256) ![0, 2, 0, 0] S1x52x52x256.size inb_S1x54x54x256_S1x52x52x256_0_2_0_0))
    (k0_pay5 (View.ld x0 (Rect.unit (s := S1x54x54x256) ![0, 2, 0, 0] S1x52x52x256.size inb_S1x54x54x256_S1x52x52x256_0_2_0_0)) (acc6 x0 x1 x2) (View.ld x1 (Rect.unit (s := S9x256x512) ![6, 0, 0] S1x256x512.size inb_S9x256x512_S1x256x512_6_0_0))) (View.ld x2 (Rect.unit (s := S9x256x512) ![6, 0, 0] S1x256x512.size inb_S9x256x512_S1x256x512_6_0_0))

/-- The accumulator after tap 7 (window offset (2, 1)): both products of the tap added. -/
def acc8 (x0 : Vec F S1x54x54x256 .bf16) (x1 x2 : Vec F S9x256x512 .bf16) : FVec F S1x2704x512 .f32 :=
  k0_pay5 (View.ld x0 (Rect.unit (s := S1x54x54x256) ![0, 2, 1, 0] S1x52x52x256.size inb_S1x54x54x256_S1x52x52x256_0_2_1_0))
    (k0_pay5 (View.ld x0 (Rect.unit (s := S1x54x54x256) ![0, 2, 1, 0] S1x52x52x256.size inb_S1x54x54x256_S1x52x52x256_0_2_1_0)) (acc7 x0 x1 x2) (View.ld x1 (Rect.unit (s := S9x256x512) ![7, 0, 0] S1x256x512.size inb_S9x256x512_S1x256x512_7_0_0))) (View.ld x2 (Rect.unit (s := S9x256x512) ![7, 0, 0] S1x256x512.size inb_S9x256x512_S1x256x512_7_0_0))

/-- The accumulator after tap 8 (window offset (2, 2)): both products of the tap added. -/
def acc9 (x0 : Vec F S1x54x54x256 .bf16) (x1 x2 : Vec F S9x256x512 .bf16) : FVec F S1x2704x512 .f32 :=
  k0_pay5 (View.ld x0 (Rect.unit (s := S1x54x54x256) ![0, 2, 2, 0] S1x52x52x256.size inb_S1x54x54x256_S1x52x52x256_0_2_2_0))
    (k0_pay5 (View.ld x0 (Rect.unit (s := S1x54x54x256) ![0, 2, 2, 0] S1x52x52x256.size inb_S1x54x54x256_S1x52x52x256_0_2_2_0)) (acc8 x0 x1 x2) (View.ld x1 (Rect.unit (s := S9x256x512) ![8, 0, 0] S1x256x512.size inb_S9x256x512_S1x256x512_8_0_0))) (View.ld x2 (Rect.unit (s := S9x256x512) ![8, 0, 0] S1x256x512.size inb_S9x256x512_S1x256x512_8_0_0))

/-- The block the body leaves: the last accumulator plus eight times the bias, halved, rounded, clipped. -/
def body (x0 : Vec F S1x54x54x256 .bf16) (x1 x2 : Vec F S9x256x512 .bf16) (x3 : Vec F S1x512 .f32) : FVec F S1x2704x512 .f32 :=
  k0_pay2 (acc9 x0 x1 x2) (View.ld x3 (Rect.unit (s := S1x512) ![0, 0] S1x512.size inb_S1x512_S1x512_0_0))

set_option maxHeartbeats 1000000 in
/-- What the run found in the output block is that term. -/
theorem out_eq_body (c : Dev nD) (i : grid0.Coords) (arg1 : Memref sig .tc .vmem S1x54x54x256 .bf16) (harg1 : arg1.IsWhole) (arg2 : Memref sig .tc .vmem S9x256x512 .bf16) (harg2 : arg2.IsWhole) (arg3 : Memref sig .tc .vmem S9x256x512 .bf16) (harg3 : arg3.IsWhole) (arg4 : Memref sig .tc .vmem S1x512 .f32) (harg4 : arg4.IsWhole) (arg5 : Memref sig .tc .vmem S1x2704x512 .f32) (harg5 : arg5.IsWhole)
    (x0 : Vec F S1x54x54x256 .bf16) (x1 : Vec F S9x256x512 .bf16) (x2 : Vec F S9x256x512 .bf16) (x3 : Vec F S1x512 .f32) :
    out0_A_4 c i arg1 harg1 arg2 harg2 arg3 harg3 arg4 harg4 arg5 harg5 x0 x1 x2 x3 = body x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  try sl_unfold_words
  rw [View.canon_cons_unit_zero hz3]
  simp only [View.readCov_cons_unit_zero (S := S1x2704x512) _ hz3, View.readAt_eq_ld, harg1.read_unread, harg2.read_unread,
    harg3.read_unread, harg4.read_unread, step6, step8, step9, step12, step13, step15, step16, step18, step20, step22, step23,
    step25, step26, step29, step30, step32, step1]
  rfl

end Cert.KernelIdeal.Body

end
-- ==== Proof.KerE.lean ====
/-
  One output entry of the kernel as a function of what its grid point reads.

  For the pixel number r of a 52×52 image (pixel (r / 52, r % 52)), `tapSum a w r dy dx` is the product of the tap (dy, dx):
  the sum over the 256 channels of the padded image at (r / 52 + dy, r % 52 + dx) times the tap's weight. The kernel adds,
  tap after tap, the product with the first weight array and then the product with the second one (`nest`); `entry` is the
  accumulated sum plus eight times the bias, halved, rounded and clipped. When the second weight array is zero the nested
  accumulation is the plain triple sum over channels and taps (`nest_zero`).
-/
import proofs.«157169_j57483842290268_2_alg».proof.Proof.Spec

noncomputable section

open scoped BigOperators

namespace Cert.Conv

open Idealize.ShloMosaic Idealize.ShloMosaic.ValueIdx

/-- The product of tap (dy, dx) at pixel r: over the channels, image(r / 52 + dy, r % 52 + dx, ch) · w(3·dy + dx, ch). -/
def tapSum (a : Fin 54 → Fin 54 → Fin 256 → EReal) (w : Fin 9 → Fin 256 → EReal) (r : Fin 2704) (dy dx : Fin 3) : EReal :=
  ∑ ch : Fin 256, a ⟨r.val / 52 + dy.val, by omega⟩ ⟨r.val % 52 + dx.val, by omega⟩ ch * w ⟨3 * dy.val + dx.val, by omega⟩ ch

/-- The accumulation in the kernel's order: from zero, for each tap first the product with `wh`, then with `wl`. -/
def nest (a : Fin 54 → Fin 54 → Fin 256 → EReal) (wh wl : Fin 9 → Fin 256 → EReal) (r : Fin 2704) : EReal :=
  (((((((((((((((((((0 : EReal) + tapSum a wh r 0 0) + tapSum a wl r 0 0) + tapSum a wh r 0 1) + tapSum a wl r 0 1) + tapSum a wh r 0 2) + tapSum a wl r 0 2) + tapSum a wh r 1 0) + tapSum a wl r 1 0) + tapSum a wh r 1 1) + tapSum a wl r 1 1) + tapSum a wh r 1 2) + tapSum a wl r 1 2) + tapSum a wh r 2 0) + tapSum a wl r 2 0) + tapSum a wh r 2 1) + tapSum a wl r 2 1) + tapSum a wh r 2 2) + tapSum a wl r 2 2)

/-- The kernel's output entry at pixel r: (accumulated sum + 8·bias) / 2, rounded and clipped. -/
def entry (a : Fin 54 → Fin 54 → Fin 256 → EReal) (wh wl : Fin 9 → Fin 256 → EReal) (b : EReal) (r : Fin 2704) : EReal :=
  clipRound ((nest a wh wl r + b * Ideal.ofBits .f32 0x41000000#32) * Ideal.ofBits .f32 0x3F000000#32)

/-- A tap's product with the zero weights is zero. -/
theorem tapSum_zero (a : Fin 54 → Fin 54 → Fin 256 → EReal) (r : Fin 2704) (dy dx : Fin 3) :
    tapSum a (fun _ _ => 0) r dy dx = 0 := by
  unfold tapSum
  simp only [mul_zero, Finset.sum_const_zero]

/-- With a zero second weight array the accumulation is the sum over channels and taps. -/
theorem nest_zero (a : Fin 54 → Fin 54 → Fin 256 → EReal) (wh : Fin 9 → Fin 256 → EReal) (r : Fin 2704) :
    nest a wh (fun _ _ => 0) r
      = ∑ ch : Fin 256, ∑ y : Fin 3, ∑ x : Fin 3,
          a ⟨r.val / 52 + y.val, by omega⟩ ⟨r.val % 52 + x.val, by omega⟩ ch * wh ⟨3 * y.val + x.val, by omega⟩ ch := by
  unfold nest
  simp only [tapSum_zero, add_zero, zero_add]
  have hc : (∑ ch : Fin 256, ∑ y : Fin 3, ∑ x : Fin 3,
        a ⟨r.val / 52 + y.val, by omega⟩ ⟨r.val % 52 + x.val, by omega⟩ ch * wh ⟨3 * y.val + x.val, by omega⟩ ch)
      = ∑ y : Fin 3, ∑ x : Fin 3, tapSum a wh r y x := by
    rw [Finset.sum_comm]
    refine Finset.sum_congr rfl fun y _ => ?_
    rw [Finset.sum_comm]
    rfl
  rw [hc]
  simp only [Fin.sum_univ_three, add_assoc]

end Cert.Conv

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KerStep.lean ====
/-
  One step of the kernel's arithmetic at the extended reals, read at an index.

  The kernel keeps a 2704×512 accumulator per image: row r is output pixel (r / 52, r % 52), column f the output channel.
  Each tap of the 3×3 stencil contributes the product of the tap's 52×52×256 block of the framed input, flattened row-major
  to 2704×256, with a 256×512 block of weights. At the end eight times the bias is added and the result is halved,
  rounded and clipped. Last, the sum accumulated tap by tap is the triple sum over channels and taps.
-/
import proofs.«157169_j57483842290268_2_alg».proof.Proof.Gen.KernelIdeal.Skeleton
import proofs.«157169_j57483842290268_2_alg».proof.Proof.Spec
import proofs.«157169_j57483842290268_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-- The kernel's dimension numbers are those of a plain 2704×256 by 256×512 product. -/
theorem dot_eq_plain : dot_S2704x256_S256x512_S2704x512_1_0_0_1_n_n = DotDims.plain 2704 256 512 := rfl

/-- The tap block flattened to a matrix: row r is pixel (r / 52, r % 52). -/
theorem pay4_apply (xt : Vec Ideal S1x52x52x256 .bf16) (r : Fin 2704) (ch : Fin 256) :
    k0_pay4 (F := Ideal) xt (ix2 r ch)
      = xt (ix4 (0 : Fin 1) (⟨r.val / 52, by omega⟩ : Fin 52) (⟨r.val % 52, by omega⟩ : Fin 52) ch) := by
  unfold k0_pay4
  refine (shapeCast_apply _ shapeCasts_S52x52x256_S2704x256 (ix2 r ch)
    (ix3 (⟨r.val / 52, by omega⟩ : Fin 52) (⟨r.val % 52, by omega⟩ : Fin 52) ch) ?_).trans ?_
  · rewrite [Shape.rowMajor_val_three, Shape.rowMajor_val_two]
    show (r.val / 52 * 52 + r.val % 52) * 256 + ch.val = r.val * 256 + ch.val
    omega
  · exact shapeCast_1abc_abc_apply xt shapeCasts_S1x52x52x256_S52x52x256 _ _ _

/-- One accumulation step: the accumulator plus the tap's matrix product, at row r and column f. -/
theorem pay5_apply (xt : Vec Ideal S1x52x52x256 .bf16) (acc : Vec Ideal S1x2704x512 .f32) (w : Vec Ideal S1x256x512 .bf16)
    (r : Fin 2704) (f : Fin 512) :
    k0_pay5 (F := Ideal) xt acc w (ix3 (0 : Fin 1) r f)
      = acc (ix3 (0 : Fin 1) r f)
        + ∑ ch : Fin 256, xt (ix4 (0 : Fin 1) (⟨r.val / 52, by omega⟩ : Fin 52) (⟨r.val % 52, by omega⟩ : Fin 52) ch)
            * w (ix3 (0 : Fin 1) ch f) := by
  unfold k0_pay5
  refine (shapeCast_ab_1ab_apply _ shapeCasts_S2704x512_S1x2704x512 (0 : Fin 1) r f).trans ?_
  refine (addf_apply _ _ _).trans ?_
  refine congr (congrArg HAdd.hAdd (shapeCast_1ab_ab_apply acc shapeCasts_S1x2704x512_S2704x512 r f)) ?_
  refine (Cert.LibPlainDot.matmul_plain 2704 256 512 none (k0_pay4 (F := Ideal) xt)
    (shapeCast S256x512 w shapeCasts_S1x256x512_S256x512) (ix2 r f)).trans ?_
  refine Finset.sum_congr rfl fun ch _ => ?_
  exact congr (congrArg HMul.hMul (pay4_apply xt r ch)) (shapeCast_1ab_ab_apply w shapeCasts_S1x256x512_S256x512 ch f)

/-- The accumulator starts at zero. -/
theorem pay3_apply (r : Fin 2704) (f : Fin 512) : k0_pay3 (F := Ideal) (ix3 (0 : Fin 1) r f) = 0 := by
  unfold k0_pay3
  refine (shapeCast_ab_1ab_apply _ shapeCasts_S2704x512_S1x2704x512 (0 : Fin 1) r f).trans ?_
  exact Ideal.ofBits_zero_f32

/-- The last step: eight times the bias added, the result halved, rounded and clipped. -/
theorem pay2_apply (acc : Vec Ideal S1x2704x512 .f32) (b : Vec Ideal S1x512 .f32) (r : Fin 2704) (f : Fin 512) :
    k0_pay2 (F := Ideal) acc b (ix3 (0 : Fin 1) r f)
      = Cert.Conv.clipRound ((acc (ix3 (0 : Fin 1) r f) + b (ix2 (0 : Fin 1) f) * Ideal.ofBits .f32 0x41000000#32)
          * Ideal.ofBits .f32 0x3F000000#32) := by
  have h1 : shapeCast S2704x512 acc shapeCasts_S1x2704x512_S2704x512 (ix2 r f) = acc (ix3 (0 : Fin 1) r f) :=
    shapeCast_1ab_ab_apply acc shapeCasts_S1x2704x512_S2704x512 r f
  have h2 : broadcastTo S2704x512 (mulf (shapeCast S1x512 b shapeCasts_S1x512_S1x512)
        (broadcast S1x512 (Scalar.ofBits (F := Ideal) .f32 0x41000000#32))) broadcasts_S1x512_S2704x512 (ix2 r f)
      = b (ix2 (0 : Fin 1) f) * Ideal.ofBits .f32 0x41000000#32 := by
    refine (broadcastTo_apply _ broadcasts_S1x512_S2704x512 (ix2 r f) (ix2 (0 : Fin 1) f) (fun a => match a with
      | ⟨0, _⟩ => by show (0 : ℕ) = if (1 : ℕ) = 1 then 0 else r.val; rw [if_pos rfl]
      | ⟨1, _⟩ => by show f.val = if (512 : ℕ) = 1 then 0 else f.val; rw [if_neg (by decide)])).trans ?_
    rw [shapeCast_self]
    rfl
  have e : k0_pay2 (F := Ideal) acc b (ix3 (0 : Fin 1) r f)
      = min (Ideal.ofBits .f32 0x42FE0000#32) (max (Ideal.ofBits .f32 0xC3000000#32)
          (Ideal.liftRound Ideal.roundHalfEven
            ((shapeCast S2704x512 acc shapeCasts_S1x2704x512_S2704x512 (ix2 r f)
              + broadcastTo S2704x512 (mulf (shapeCast S1x512 b shapeCasts_S1x512_S1x512)
                  (broadcast S1x512 (Scalar.ofBits (F := Ideal) .f32 0x41000000#32))) broadcasts_S1x512_S2704x512 (ix2 r f))
              * Ideal.ofBits .f32 0x3F000000#32))) := by
    unfold k0_pay2
    exact shapeCast_ab_1ab_apply _ shapeCasts_S2704x512_S1x2704x512 (0 : Fin 1) r f
  rw [e, h1, h2]
  rfl

/-- The sum accumulated tap by tap — from zero, for the taps (0,0), (0,1), …, (2,2) in turn, the tap's sum over the channels
    and then a sum of products with zero — is the sum over channels and taps. -/
theorem taps_sum (a wt : Fin 3 → Fin 3 → Fin 256 → EReal) :
    ((((((((((((((((((0 : EReal)
      + ∑ ch : Fin 256, a 0 0 ch * wt 0 0 ch)
      + ∑ ch : Fin 256, a 0 0 ch * (0 : EReal))
      + ∑ ch : Fin 256, a 0 1 ch * wt 0 1 ch)
      + ∑ ch : Fin 256, a 0 1 ch * (0 : EReal))
      + ∑ ch : Fin 256, a 0 2 ch * wt 0 2 ch)
      + ∑ ch : Fin 256, a 0 2 ch * (0 : EReal))
      + ∑ ch : Fin 256, a 1 0 ch * wt 1 0 ch)
      + ∑ ch : Fin 256, a 1 0 ch * (0 : EReal))
      + ∑ ch : Fin 256, a 1 1 ch * wt 1 1 ch)
      + ∑ ch : Fin 256, a 1 1 ch * (0 : EReal))
      + ∑ ch : Fin 256, a 1 2 ch * wt 1 2 ch)
      + ∑ ch : Fin 256, a 1 2 ch * (0 : EReal))
      + ∑ ch : Fin 256, a 2 0 ch * wt 2 0 ch)
      + ∑ ch : Fin 256, a 2 0 ch * (0 : EReal))
      + ∑ ch : Fin 256, a 2 1 ch * wt 2 1 ch)
      + ∑ ch : Fin 256, a 2 1 ch * (0 : EReal))
      + ∑ ch : Fin 256, a 2 2 ch * wt 2 2 ch)
      + ∑ ch : Fin 256, a 2 2 ch * (0 : EReal)
      = ∑ ch : Fin 256, ∑ y : Fin 3, ∑ x : Fin 3, a y x ch * wt y x ch := by
  simp only [mul_zero, Finset.sum_const_zero, add_zero, zero_add, Fin.sum_univ_three, Finset.sum_add_distrib, add_assoc]
  ac_rfl

end Cert.KernelIdeal.Step

end
-- ==== Proof.KerBodyAt.lean ====
/-
  One entry of the block a grid point's body leaves, as a function of the entries of the four blocks it reads.

  The body's block is a chain of eighteen accumulation steps, two per tap (dy, dx) of the 3×3 window, under the final
  pointwise map. Each step reads a 52×52×256 window of the framed image block at offset (dy, dx) and slab 3·dy + dx of a
  weight array. Read at row r (pixel (r / 52, r % 52)) and column f, each pair of steps adds the tap's two channel sums to the
  previous accumulator's entry; the chain from zero is the nested sum of the nine taps, and the final map adds eight times the
  bias, halves, rounds and clips.
-/
import proofs.«157169_j57483842290268_2_alg».proof.Proof.KerBody
import proofs.«157169_j57483842290268_2_alg».proof.Proof.KerStep
import proofs.«157169_j57483842290268_2_alg».proof.Proof.KerE
import Idealize.ShloMosaic.Lib.Pipeline.Value
import Idealize.ShloMosaic.Lib.ValueIdx
import Idealize.ShloMosaic.PureOps.Ideal.Laws

noncomputable section

open scoped BigOperators

open Idealize.ShloMosaic Idealize.ShloMosaic.ValueIdx

namespace Cert.KernelIdeal.BodyAt

open Cert.KernelIdeal Cert.KernelIdeal.Gen Cert.KernelIdeal.Step

/-- A load of the 52×52×256 window of the framed image block at offset (dy, dx), read at an index. -/
theorem ld_tap (x0 : Vec Ideal S1x54x54x256 .bf16) (off : Fin 4 → ℕ)
    (inb : ∀ a, off a + S1x52x52x256.size a ≤ S1x54x54x256.size a) (dy dx : Fin 3)
    (h0 : off 0 = 0) (h1 : off 1 = dy.val) (h2 : off 2 = dx.val) (h3 : off 3 = 0) (a b : Fin 52) (ch : Fin 256) :
    View.ld x0 (Rect.unit (s := S1x54x54x256) off S1x52x52x256.size inb) (ix4 (0 : Fin 1) a b ch)
      = x0 (ix4 (0 : Fin 1) (⟨a.val + dy.val, by omega⟩ : Fin 54) (⟨b.val + dx.val, by omega⟩ : Fin 54) ch) := by
  show x0 _ = x0 _
  refine congrArg x0 (funext fun d => Fin.ext ?_)
  match d with
  | ⟨0, _⟩ => show off 0 + 1 * 0 = 0; omega
  | ⟨1, _⟩ => show off 1 + 1 * a.val = a.val + dy.val; omega
  | ⟨2, _⟩ => show off 2 + 1 * b.val = b.val + dx.val; omega
  | ⟨3, _⟩ => show off 3 + 1 * ch.val = ch.val; omega

/-- A load of slab k of a weight array, read at an index. -/
theorem ld_slab (x : Vec Ideal S9x256x512 .bf16) (off : Fin 3 → ℕ)
    (inb : ∀ a, off a + S1x256x512.size a ≤ S9x256x512.size a) (k : Fin 9)
    (h0 : off 0 = k.val) (h1 : off 1 = 0) (h2 : off 2 = 0) (ch : Fin 256) (f : Fin 512) :
    View.ld x (Rect.unit (s := S9x256x512) off S1x256x512.size inb) (ix3 (0 : Fin 1) ch f) = x (ix3 k ch f) := by
  show x _ = x _
  refine congrArg x (funext fun d => Fin.ext ?_)
  match d with
  | ⟨0, _⟩ => show off 0 + 1 * 0 = k.val; omega
  | ⟨1, _⟩ => show off 1 + 1 * ch.val = ch.val; omega
  | ⟨2, _⟩ => show off 2 + 1 * f.val = f.val; omega

/-- A load of the whole bias row, read at an index. -/
theorem ld_bias (x3 : Vec Ideal S1x512 .f32) (f : Fin 512) :
    View.ld x3 (Rect.unit (s := S1x512) ![0, 0] S1x512.size inb_S1x512_S1x512_0_0) (ix2 (0 : Fin 1) f)
      = x3 (ix2 (0 : Fin 1) f) := by
  show x3 _ = x3 _
  refine congrArg x3 (funext fun d => Fin.ext ?_)
  match d with
  | ⟨0, _⟩ => rfl
  | ⟨1, _⟩ => show 0 + 1 * f.val = f.val; omega

/-- The two accumulation steps of tap (dy, dx) at row r and column f: the previous accumulator's entry plus the tap's channel sum
    with the first weight array, plus its channel sum with the second. -/
theorem tap_step (x0 : Vec Ideal S1x54x54x256 .bf16) (x1 x2 : Vec Ideal S9x256x512 .bf16) (prev : Vec Ideal S1x2704x512 .f32)
    (off : Fin 4 → ℕ) (inb : ∀ a, off a + S1x52x52x256.size a ≤ S1x54x54x256.size a)
    (woff : Fin 3 → ℕ) (winb : ∀ a, woff a + S1x256x512.size a ≤ S9x256x512.size a) (dy dx : Fin 3)
    (h0 : off 0 = 0) (h1 : off 1 = dy.val) (h2 : off 2 = dx.val) (h3 : off 3 = 0)
    (g0 : woff 0 = 3 * dy.val + dx.val) (g1 : woff 1 = 0) (g2 : woff 2 = 0) (r : Fin 2704) (f : Fin 512) :
    k0_pay5 (F := Ideal) (View.ld x0 (Rect.unit (s := S1x54x54x256) off S1x52x52x256.size inb))
        (k0_pay5 (F := Ideal) (View.ld x0 (Rect.unit (s := S1x54x54x256) off S1x52x52x256.size inb)) prev
          (View.ld x1 (Rect.unit (s := S9x256x512) woff S1x256x512.size winb)))
        (View.ld x2 (Rect.unit (s := S9x256x512) woff S1x256x512.size winb)) (ix3 (0 : Fin 1) r f)
      = (prev (ix3 (0 : Fin 1) r f)
          + Cert.Conv.tapSum (fun py px ch => x0 (ix4 (0 : Fin 1) py px ch)) (fun k ch => x1 (ix3 k ch f)) r dy dx)
        + Cert.Conv.tapSum (fun py px ch => x0 (ix4 (0 : Fin 1) py px ch)) (fun k ch => x2 (ix3 k ch f)) r dy dx := by
  rw [pay5_apply, pay5_apply]
  unfold Cert.Conv.tapSum
  refine congr (congrArg HAdd.hAdd (congrArg (fun t => prev (ix3 (0 : Fin 1) r f) + t)
    (Finset.sum_congr rfl fun ch _ => ?_))) (Finset.sum_congr rfl fun ch _ => ?_)
  · exact congr (congrArg HMul.hMul (ld_tap x0 off inb dy dx h0 h1 h2 h3 _ _ ch))
      (ld_slab x1 woff winb (⟨3 * dy.val + dx.val, by omega⟩ : Fin 9) g0 g1 g2 ch f)
  · exact congr (congrArg HMul.hMul (ld_tap x0 off inb dy dx h0 h1 h2 h3 _ _ ch))
      (ld_slab x2 woff winb (⟨3 * dy.val + dx.val, by omega⟩ : Fin 9) g0 g1 g2 ch f)

/-- The accumulator after tap (0, 0), at row r and column f: the previous one plus the tap's two channel sums. -/
theorem acc1_apply (x0 : Vec Ideal S1x54x54x256 .bf16) (x1 x2 : Vec Ideal S9x256x512 .bf16) (r : Fin 2704) (f : Fin 512) :
    Cert.KernelIdeal.Body.acc1 (F := Ideal) x0 x1 x2 (ix3 (0 : Fin 1) r f)
      = ((0 : EReal)
          + Cert.Conv.tapSum (fun py px ch => x0 (ix4 (0 : Fin 1) py px ch)) (fun k ch => x1 (ix3 k ch f)) r 0 0)
        + Cert.Conv.tapSum (fun py px ch => x0 (ix4 (0 : Fin 1) py px ch)) (fun k ch => x2 (ix3 k ch f)) r 0 0 := by
  unfold Cert.KernelIdeal.Body.acc1
  refine (tap_step x0 x1 x2 (k0_pay3 (F := Ideal)) ![0, 0, 0, 0] inb_S1x54x54x256_S1x52x52x256_0_0_0_0
    ![0, 0, 0] inb_S9x256x512_S1x256x512_0_0_0 0 0 rfl rfl rfl rfl rfl rfl rfl r f).trans ?_
  rw [pay3_apply]

/-- The accumulator after tap (0, 1), at row r and column f: the previous one plus the tap's two channel sums. -/
theorem acc2_apply (x0 : Vec Ideal S1x54x54x256 .bf16) (x1 x2 : Vec Ideal S9x256x512 .bf16) (r : Fin 2704) (f : Fin 512) :
    Cert.KernelIdeal.Body.acc2 (F := Ideal) x0 x1 x2 (ix3 (0 : Fin 1) r f)
      = (Cert.KernelIdeal.Body.acc1 (F := Ideal) x0 x1 x2 (ix3 (0 : Fin 1) r f)
          + Cert.Conv.tapSum (fun py px ch => x0 (ix4 (0 : Fin 1) py px ch)) (fun k ch => x1 (ix3 k ch f)) r 0 1)
        + Cert.Conv.tapSum (fun py px ch => x0 (ix4 (0 : Fin 1) py px ch)) (fun k ch => x2 (ix3 k ch f)) r 0 1 := by
  unfold Cert.KernelIdeal.Body.acc2
  exact tap_step x0 x1 x2 (Cert.KernelIdeal.Body.acc1 (F := Ideal) x0 x1 x2) ![0, 0, 1, 0] inb_S1x54x54x256_S1x52x52x256_0_0_1_0
    ![1, 0, 0] inb_S9x256x512_S1x256x512_1_0_0 0 1 rfl rfl rfl rfl rfl rfl rfl r f

/-- The accumulator after tap (0, 2), at row r and column f: the previous one plus the tap's two channel sums. -/
theorem acc3_apply (x0 : Vec Ideal S1x54x54x256 .bf16) (x1 x2 : Vec Ideal S9x256x512 .bf16) (r : Fin 2704) (f : Fin 512) :
    Cert.KernelIdeal.Body.acc3 (F := Ideal) x0 x1 x2 (ix3 (0 : Fin 1) r f)
      = (Cert.KernelIdeal.Body.acc2 (F := Ideal) x0 x1 x2 (ix3 (0 : Fin 1) r f)
          + Cert.Conv.tapSum (fun py px ch => x0 (ix4 (0 : Fin 1) py px ch)) (fun k ch => x1 (ix3 k ch f)) r 0 2)
        + Cert.Conv.tapSum (fun py px ch => x0 (ix4 (0 : Fin 1) py px ch)) (fun k ch => x2 (ix3 k ch f)) r 0 2 := by
  unfold Cert.KernelIdeal.Body.acc3
  exact tap_step x0 x1 x2 (Cert.KernelIdeal.Body.acc2 (F := Ideal) x0 x1 x2) ![0, 0, 2, 0] inb_S1x54x54x256_S1x52x52x256_0_0_2_0
    ![2, 0, 0] inb_S9x256x512_S1x256x512_2_0_0 0 2 rfl rfl rfl rfl rfl rfl rfl r f

/-- The accumulator after tap (1, 0), at row r and column f: the previous one plus the tap's two channel sums. -/
theorem acc4_apply (x0 : Vec Ideal S1x54x54x256 .bf16) (x1 x2 : Vec Ideal S9x256x512 .bf16) (r : Fin 2704) (f : Fin 512) :
    Cert.KernelIdeal.Body.acc4 (F := Ideal) x0 x1 x2 (ix3 (0 : Fin 1) r f)
      = (Cert.KernelIdeal.Body.acc3 (F := Ideal) x0 x1 x2 (ix3 (0 : Fin 1) r f)
          + Cert.Conv.tapSum (fun py px ch => x0 (ix4 (0 : Fin 1) py px ch)) (fun k ch => x1 (ix3 k ch f)) r 1 0)
        + Cert.Conv.tapSum (fun py px ch => x0 (ix4 (0 : Fin 1) py px ch)) (fun k ch => x2 (ix3 k ch f)) r 1 0 := by
  unfold Cert.KernelIdeal.Body.acc4
  exact tap_step x0 x1 x2 (Cert.KernelIdeal.Body.acc3 (F := Ideal) x0 x1 x2) ![0, 1, 0, 0] inb_S1x54x54x256_S1x52x52x256_0_1_0_0
    ![3, 0, 0] inb_S9x256x512_S1x256x512_3_0_0 1 0 rfl rfl rfl rfl rfl rfl rfl r f

/-- The accumulator after tap (1, 1), at row r and column f: the previous one plus the tap's two channel sums. -/
theorem acc5_apply (x0 : Vec Ideal S1x54x54x256 .bf16) (x1 x2 : Vec Ideal S9x256x512 .bf16) (r : Fin 2704) (f : Fin 512) :
    Cert.KernelIdeal.Body.acc5 (F := Ideal) x0 x1 x2 (ix3 (0 : Fin 1) r f)
      = (Cert.KernelIdeal.Body.acc4 (F := Ideal) x0 x1 x2 (ix3 (0 : Fin 1) r f)
          + Cert.Conv.tapSum (fun py px ch => x0 (ix4 (0 : Fin 1) py px ch)) (fun k ch => x1 (ix3 k ch f)) r 1 1)
        + Cert.Conv.tapSum (fun py px ch => x0 (ix4 (0 : Fin 1) py px ch)) (fun k ch => x2 (ix3 k ch f)) r 1 1 := by
  unfold Cert.KernelIdeal.Body.acc5
  exact tap_step x0 x1 x2 (Cert.KernelIdeal.Body.acc4 (F := Ideal) x0 x1 x2) ![0, 1, 1, 0] inb_S1x54x54x256_S1x52x52x256_0_1_1_0
    ![4, 0, 0] inb_S9x256x512_S1x256x512_4_0_0 1 1 rfl rfl rfl rfl rfl rfl rfl r f

/-- The accumulator after tap (1, 2), at row r and column f: the previous one plus the tap's two channel sums. -/
theorem acc6_apply (x0 : Vec Ideal S1x54x54x256 .bf16) (x1 x2 : Vec Ideal S9x256x512 .bf16) (r : Fin 2704) (f : Fin 512) :
    Cert.KernelIdeal.Body.acc6 (F := Ideal) x0 x1 x2 (ix3 (0 : Fin 1) r f)
      = (Cert.KernelIdeal.Body.acc5 (F := Ideal) x0 x1 x2 (ix3 (0 : Fin 1) r f)
          + Cert.Conv.tapSum (fun py px ch => x0 (ix4 (0 : Fin 1) py px ch)) (fun k ch => x1 (ix3 k ch f)) r 1 2)
        + Cert.Conv.tapSum (fun py px ch => x0 (ix4 (0 : Fin 1) py px ch)) (fun k ch => x2 (ix3 k ch f)) r 1 2 := by
  unfold Cert.KernelIdeal.Body.acc6
  exact tap_step x0 x1 x2 (Cert.KernelIdeal.Body.acc5 (F := Ideal) x0 x1 x2) ![0, 1, 2, 0] inb_S1x54x54x256_S1x52x52x256_0_1_2_0
    ![5, 0, 0] inb_S9x256x512_S1x256x512_5_0_0 1 2 rfl rfl rfl rfl rfl rfl rfl r f

/-- The accumulator after tap (2, 0), at row r and column f: the previous one plus the tap's two channel sums. -/
theorem acc7_apply (x0 : Vec Ideal S1x54x54x256 .bf16) (x1 x2 : Vec Ideal S9x256x512 .bf16) (r : Fin 2704) (f : Fin 512) :
    Cert.KernelIdeal.Body.acc7 (F := Ideal) x0 x1 x2 (ix3 (0 : Fin 1) r f)
      = (Cert.KernelIdeal.Body.acc6 (F := Ideal) x0 x1 x2 (ix3 (0 : Fin 1) r f)
          + Cert.Conv.tapSum (fun py px ch => x0 (ix4 (0 : Fin 1) py px ch)) (fun k ch => x1 (ix3 k ch f)) r 2 0)
        + Cert.Conv.tapSum (fun py px ch => x0 (ix4 (0 : Fin 1) py px ch)) (fun k ch => x2 (ix3 k ch f)) r 2 0 := by
  unfold Cert.KernelIdeal.Body.acc7
  exact tap_step x0 x1 x2 (Cert.KernelIdeal.Body.acc6 (F := Ideal) x0 x1 x2) ![0, 2, 0, 0] inb_S1x54x54x256_S1x52x52x256_0_2_0_0
    ![6, 0, 0] inb_S9x256x512_S1x256x512_6_0_0 2 0 rfl rfl rfl rfl rfl rfl rfl r f

/-- The accumulator after tap (2, 1), at row r and column f: the previous one plus the tap's two channel sums. -/
theorem acc8_apply (x0 : Vec Ideal S1x54x54x256 .bf16) (x1 x2 : Vec Ideal S9x256x512 .bf16) (r : Fin 2704) (f : Fin 512) :
    Cert.KernelIdeal.Body.acc8 (F := Ideal) x0 x1 x2 (ix3 (0 : Fin 1) r f)
      = (Cert.KernelIdeal.Body.acc7 (F := Ideal) x0 x1 x2 (ix3 (0 : Fin 1) r f)
          + Cert.Conv.tapSum (fun py px ch => x0 (ix4 (0 : Fin 1) py px ch)) (fun k ch => x1 (ix3 k ch f)) r 2 1)
        + Cert.Conv.tapSum (fun py px ch => x0 (ix4 (0 : Fin 1) py px ch)) (fun k ch => x2 (ix3 k ch f)) r 2 1 := by
  unfold Cert.KernelIdeal.Body.acc8
  exact tap_step x0 x1 x2 (Cert.KernelIdeal.Body.acc7 (F := Ideal) x0 x1 x2) ![0, 2, 1, 0] inb_S1x54x54x256_S1x52x52x256_0_2_1_0
    ![7, 0, 0] inb_S9x256x512_S1x256x512_7_0_0 2 1 rfl rfl rfl rfl rfl rfl rfl r f

/-- The accumulator after tap (2, 2), at row r and column f: the previous one plus the tap's two channel sums. -/
theorem acc9_apply (x0 : Vec Ideal S1x54x54x256 .bf16) (x1 x2 : Vec Ideal S9x256x512 .bf16) (r : Fin 2704) (f : Fin 512) :
    Cert.KernelIdeal.Body.acc9 (F := Ideal) x0 x1 x2 (ix3 (0 : Fin 1) r f)
      = (Cert.KernelIdeal.Body.acc8 (F := Ideal) x0 x1 x2 (ix3 (0 : Fin 1) r f)
          + Cert.Conv.tapSum (fun py px ch => x0 (ix4 (0 : Fin 1) py px ch)) (fun k ch => x1 (ix3 k ch f)) r 2 2)
        + Cert.Conv.tapSum (fun py px ch => x0 (ix4 (0 : Fin 1) py px ch)) (fun k ch => x2 (ix3 k ch f)) r 2 2 := by
  unfold Cert.KernelIdeal.Body.acc9
  exact tap_step x0 x1 x2 (Cert.KernelIdeal.Body.acc8 (F := Ideal) x0 x1 x2) ![0, 2, 2, 0] inb_S1x54x54x256_S1x52x52x256_0_2_2_0
    ![8, 0, 0] inb_S9x256x512_S1x256x512_8_0_0 2 2 rfl rfl rfl rfl rfl rfl rfl r f

/-- One entry of the block the body leaves: the nested sum of the nine taps plus eight times the bias, halved, rounded and
    clipped. -/
theorem body_apply (x0 : Vec Ideal S1x54x54x256 .bf16) (x1 x2 : Vec Ideal S9x256x512 .bf16) (x3 : Vec Ideal S1x512 .f32)
    (r : Fin 2704) (f : Fin 512) :
    Cert.KernelIdeal.Body.body (F := Ideal) x0 x1 x2 x3 (ix3 (0 : Fin 1) r f)
      = Cert.Conv.entry (fun py px ch => x0 (ix4 (0 : Fin 1) py px ch)) (fun k ch => x1 (ix3 k ch f)) (fun k ch => x2 (ix3 k ch f)) (x3 (ix2 (0 : Fin 1) f)) r := by
  unfold Cert.KernelIdeal.Body.body
  rw [pay2_apply, ld_bias, acc9_apply, acc8_apply, acc7_apply, acc6_apply, acc5_apply, acc4_apply, acc3_apply, acc2_apply,
    acc1_apply]
  rfl

end Cert.KernelIdeal.BodyAt

end
-- ==== Proof.KerArray.lean ====
/-
  From the grid points' blocks to the whole output array, and on to the program's result.

  Grid point t reads image t of the padded input (the whole 54×54×256 slab), both weight arrays and the bias row whole, and
  writes block t of the 8×2704×512 output; by the body's value every entry of that block is `Cert.Conv.entry` of the arrays
  as the call finds them. The eight blocks tile the output, so the array after the call is one function of those arrays
  (`blockVal`), and the program's result is that array reshaped to 8×52×52×512 and transposed to 8×512×52×52.
-/
import proofs.«157169_j57483842290268_2_alg».proof.Proof.Gen.KernelIdeal.Frame
import proofs.«157169_j57483842290268_2_alg».proof.Proof.KerBody
import proofs.«157169_j57483842290268_2_alg».proof.Proof.KerE
import proofs.«157169_j57483842290268_2_alg».proof.Proof.KerBodyAt
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

variable (m : (ℓ : Loc nD τ sig) → Buf (Elt Ideal) ℓ) (ρ : Dev nD → PrngReg)

/-- The output array as one function of the four arrays the call is given: entry (n, r, f) is the kernel's entry at pixel
    r of image n and output channel f. -/
def blockVal (A8 : S8x54x54x256.Idx → EReal) (W12 W15 : S9x256x512.Idx → EReal) (B16 : S1x512.Idx → EReal) :
    S8x2704x512.Idx → EReal := fun i =>
  Cert.Conv.entry (fun py px ch => A8 (ix4 (i 0) py px ch)) (fun k ch => W12 (ix3 k ch (i 2))) (fun k ch => W15 (ix3 k ch (i 2)))
    (B16 (ix2 (0 : Fin 1) (i 2))) (i 1)

/-- The printed index maps over the grid: point t takes image t and output block t; the weights and the bias do not move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 8 := lt_of_lt_of_eq t.isLt N_0

/-- Point t's image block is image t of the padded input. -/
theorem iblk0_apply (c : Dev nD) (t : Fin cfg0.N) (py px : Fin 54) (ch : Fin 256) :
    iblk m c 0 t (ix4 (0 : Fin 1) py px ch) = (V m c main_v8 : S8x54x54x256.Idx → EReal) (ix4 (⟨t.val, t_lt t⟩ : Fin 8) py px ch) := by
  obtain ⟨e0, e1, e2, e3, -⟩ := idx_facts t
  show V m c main_v8 (((cfg0.win 0).blk t).view.emb (ix4 (0 : Fin 1) py px ch)) = V m c main_v8 _
  refine congrArg (V m c main_v8) (funext fun a => Fin.ext ?_)
  match a with
  | ⟨0, _⟩ => show win0_0.index t (0 : Fin 4) * 1 + 1 * 0 = t.val; omega
  | ⟨1, _⟩ => show win0_0.index t (1 : Fin 4) * 54 + 1 * py.val = py.val; omega
  | ⟨2, _⟩ => show win0_0.index t (2 : Fin 4) * 54 + 1 * px.val = px.val; omega
  | ⟨3, _⟩ => show win0_0.index t (3 : Fin 4) * 256 + 1 * ch.val = ch.val; omega

/-- Every point's first weight block is the whole first weight array. -/
theorem iblk1_apply (c : Dev nD) (t : Fin cfg0.N) (k : Fin 9) (ch : Fin 256) (f : Fin 512) :
    iblk m c 1 t (ix3 k ch f) = (V m c main_v12 : S9x256x512.Idx → EReal) (ix3 k ch f) := by
  obtain ⟨-, -, -, -, e0, e1, e2, -⟩ := idx_facts t
  show V m c main_v12 (((cfg0.win 1).blk t).view.emb (ix3 k ch f)) = V m c main_v12 _
  refine congrArg (V m c main_v12) (funext fun a => Fin.ext ?_)
  match a with
  | ⟨0, _⟩ => show win0_1.index t (0 : Fin 3) * 9 + 1 * k.val = k.val; omega
  | ⟨1, _⟩ => show win0_1.index t (1 : Fin 3) * 256 + 1 * ch.val = ch.val; omega
  | ⟨2, _⟩ => show win0_1.index t (2 : Fin 3) * 512 + 1 * f.val = f.val; omega

/-- Every point's second weight block is the whole second weight array. -/
theorem iblk2_apply (c : Dev nD) (t : Fin cfg0.N) (k : Fin 9) (ch : Fin 256) (f : Fin 512) :
    iblk m c 2 t (ix3 k ch f) = (V m c main_v15 : S9x256x512.Idx → EReal) (ix3 k ch f) := by
  obtain ⟨-, -, -, -, -, -, -, e0, e1, e2, -⟩ := idx_facts t
  show V m c main_v15 (((cfg0.win 2).blk t).view.emb (ix3 k ch f)) = V m c main_v15 _
  refine congrArg (V m c main_v15) (funext fun a => Fin.ext ?_)
  match a with
  | ⟨0, _⟩ => show win0_2.index t (0 : Fin 3) * 9 + 1 * k.val = k.val; omega
  | ⟨1, _⟩ => show win0_2.index t (1 : Fin 3) * 256 + 1 * ch.val = ch.val; omega
  | ⟨2, _⟩ => show win0_2.index t (2 : Fin 3) * 512 + 1 * f.val = f.val; omega

/-- Every point's bias block is the whole bias row. -/
theorem iblk3_apply (c : Dev nD) (t : Fin cfg0.N) (f : Fin 512) :
    iblk m c 3 t (ix2 (0 : Fin 1) f) = (V m c main_v16 : S1x512.Idx → EReal) (ix2 (0 : Fin 1) f) := by
  obtain ⟨-, -, -, -, -, -, -, -, -, -, e0, e1, -⟩ := idx_facts t
  show V m c main_v16 (((cfg0.win 3).blk t).view.emb (ix2 (0 : Fin 1) f)) = V m c main_v16 _
  refine congrArg (V m c main_v16) (funext fun a => Fin.ext ?_)
  match a with
  | ⟨0, _⟩ => show win0_3.index t (0 : Fin 2) * 1 + 1 * 0 = 0; omega
  | ⟨1, _⟩ => show win0_3.index t (1 : Fin 2) * 512 + 1 * f.val = f.val; omega

/-- What point t writes back is block t of `blockVal` of the arrays as the call finds them. -/
theorem flushed_eq (c : Dev nD) (t : Fin cfg0.N) :
    (dats m 0 c).flushed 4 t = ((cfg0.win 4).blk t).view.read (Elt Ideal)
      (blockVal (V m c main_v8) (V m c main_v12) (V m c main_v15) (V m c main_v16)) := by
  show (cfg0.win 4).cut (grid0.coords t) ((dats m 0 c).after 4 t) = _
  rw [after0_4]
  unfold outsAt0
  rw [Cert.KernelIdeal.Body.out_eq_body]
  obtain ⟨-, -, -, -, -, -, -, -, -, -, -, -, e0, e1, e2⟩ := idx_facts t
  funext j
  obtain ⟨z, r, f, rfl⟩ : ∃ (z : Fin 1) (r : Fin 2704) (f : Fin 512), j = ix3 z r f := ⟨j 0, j 1, j 2, eq_ix3 j⟩
  obtain rfl : z = 0 := Subsingleton.elim _ _
  show Cert.KernelIdeal.Body.body (F := Ideal) (iblk m c 0 t) (iblk m c 1 t) (iblk m c 2 t) (iblk m c 3 t) (ix3 (0 : Fin 1) r f)
    = blockVal (V m c main_v8) (V m c main_v12) (V m c main_v15) (V m c main_v16) (((cfg0.win 4).blk t).view.emb (ix3 (0 : Fin 1) r f))
  rw [Cert.KernelIdeal.BodyAt.body_apply]
  have hi : ((cfg0.win 4).blk t).view.emb (ix3 (0 : Fin 1) r f) = ix3 (⟨t.val, t_lt t⟩ : Fin 8) r f := by
    funext a; apply Fin.ext
    match a with
    | ⟨0, _⟩ => show win0_4.index t (0 : Fin 3) * 1 + 1 * 0 = t.val; omega
    | ⟨1, _⟩ => show win0_4.index t (1 : Fin 3) * 2704 + 1 * r.val = r.val; omega
    | ⟨2, _⟩ => show win0_4.index t (2 : Fin 3) * 512 + 1 * f.val = f.val; omega
  rw [hi]
  unfold blockVal
  simp only [iblk0_apply, iblk1_apply, iblk2_apply, iblk3_apply]

/-- An index of the output array is in point t's block iff each coordinate is in the block's range. -/
theorem mem_blk (t : Fin cfg0.N) (i : S8x2704x512.Idx) :
    i ∈ ((cfg0.win 4).blk t).view.set ↔ ∀ a : Fin 3, win0_4.index t a * S1x2704x512.size a ≤ (i a).val ∧ (i a).val < win0_4.index t a * S1x2704x512.size a + S1x2704x512.size a := by
  show i ∈ ((View.whole main_v17).slice (win0_4.rect t)).set ↔ _
  rw [View.set_slice_whole, Rect.mem_set_unit]
  exact Iff.rfl

/-- The eight blocks tile the array: entry (n, r, f) is in point n's block. -/
theorem cover (i : S8x2704x512.Idx) : ∃ t : Fin cfg0.N, (cfg0.win 4).flush t = true ∧ i ∈ ((cfg0.win 4).blk t).view.set := by
  have h0 : (i 0).val < 8 := (i 0).isLt
  have h1 : (i 1).val < 2704 := (i 1).isLt
  have h2 : (i 2).val < 512 := (i 2).isLt
  let t : Fin cfg0.N := ⟨(i 0).val, by rw [show cfg0.N = 8 from N_0]; exact h0⟩
  obtain ⟨-, -, -, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; rw [e0]; show (i 0).val * 1 ≤ (i 0).val ∧ (i 0).val < (i 0).val * 1 + 1; omega
  | ⟨1, _⟩ => show win0_4.index t (1 : Fin 3) * 2704 ≤ (i 1).val ∧ (i 1).val < win0_4.index t (1 : Fin 3) * 2704 + 2704; omega
  | ⟨2, _⟩ => show win0_4.index t (2 : Fin 3) * 512 ≤ (i 2).val ∧ (i 2).val < win0_4.index t (2 : Fin 3) * 512 + 512; omega

/-- The output array after the call. -/
theorem final (c : Dev nD) :
    (dats m 0 c).arrAt 4 cfg0.N = blockVal (V m c main_v8) (V m c main_v12) (V m c main_v15) (V m c main_v16) :=
  (dats m 0 c).arrAt_eq_of_cover 4 _ (fun t _ => flushed_eq m c t) cover

/-- The result after the two host lines that follow the call: the call's output array re-laid. -/
theorem tail_eq (c : Dev nD) :
    Pipeline.afterTail₀ cfgs (dats m) 0 (V0 m) [hostOps1] c main_v19
      = transpose S8x512x52x52 [0, 3, 1, 2] (shapeCast S8x52x52x512 ((dats m 0 c).arrAt 4 cfg0.N) shapeCasts_S8x2704x512_S8x52x52x512) transposes_S8x52x52x512_S8x512x52x52_0_3_1_2 := by
  unfold Pipeline.afterTail₀
  show StableHlo.after hostOps1 _ (Proc.devRef .tc main_v19) = _
  after_results
  exact congrArg (fun a => transpose S8x512x52x52 [0, 3, 1, 2] (shapeCast S8x52x52x512 a shapeCasts_S8x2704x512_S8x52x52x512) transposes_S8x52x52x512_S8x512x52x52_0_3_1_2)
    (Pipeline.withArrays_arr spec0 launch0.win.arr_inj c (V0 m c) (fun w => (dats m 0 c).arrAt w (cfgs 0).N) 4)

/-- The program's result, entry (n, f, oy, ox): the output array at (n, 52·oy + ox, f). -/
theorem result_apply (c : Dev nD) (n : Fin 8) (f : Fin 512) (oy ox : Fin 52) :
    (Pipeline.afterTail₀ cfgs (dats m) 0 (V0 m) [hostOps1] c main_v19 : S8x512x52x52.Idx → EReal) (ix4 n f oy ox)
      = blockVal (V m c main_v8) (V m c main_v12) (V m c main_v15) (V m c main_v16) (ix3 n (⟨oy.val * 52 + ox.val, by omega⟩ : Fin 2704) f) := by
  rw [tail_eq, final]
  rw [transpose_apply [0, 3, 1, 2] _ transposes_S8x52x52x512_S8x512x52x52_0_3_1_2 (ix4 n f oy ox) (ix4 n oy ox f) (fun b => by
    match b with
    | ⟨0, _⟩ => rfl
    | ⟨1, _⟩ => rfl
    | ⟨2, _⟩ => rfl
    | ⟨3, _⟩ => rfl)]
  refine shapeCast_apply _ shapeCasts_S8x2704x512_S8x52x52x512 (ix4 n oy ox f) (ix3 n (⟨oy.val * 52 + ox.val, by omega⟩ : Fin 2704) f) ?_
  rw [Shape.rowMajor_val_three, Shape.rowMajor_val_four]
  show (n.val * 2704 + (oy.val * 52 + ox.val)) * 512 + f.val = ((n.val * 52 + oy.val) * 52 + ox.val) * 512 + f.val
  ring

/-- The frame run re-posted: the result buffer at the tail's value, the arguments unchanged. -/
theorem run : θ_run defs (onTc (τ := τ) (main (F := Ideal))) ⟨m, fun _ => 0, ρ⟩ fun r => ∀ c : Dev nD,
      r.2.mem ((c.tc : Thread nD τ).loc main_v19) = Pipeline.afterTail₀ cfgs (dats m) 0 (V0 m) [hostOps1] c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).2 main_v19 (Pipeline.mem_restRefs_of main_v19 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Arr

end
-- ==== Proof.KerHost.lean ====
/-
  The operand arrays of the convolution's region, read entry by entry from the three argument arrays.

  Before the region the program requantises the input (clip(round(20·x)), halved), moves the channel axis last, lays
  each image on a 54 × 54 frame with a ring of zeros, regroups the 2304 × 512 weight matrix tap by tap as 9 × 256 × 512,
  forms the difference of the regrouped weights and their change of format (zero for finite weights at the ideal
  instance, where a change of format is the identity), and reads the bias as one row.
-/
import proofs.«157169_j57483842290268_2_alg».proof.Proof.Gen.KernelIdeal.Frame
import proofs.«157169_j57483842290268_2_alg».proof.Proof.Gen.Pre_finite_inputs
import proofs.«157169_j57483842290268_2_alg».proof.Defs
import proofs.«157169_j57483842290268_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.ReduceAll
import Idealize.ShloMosaic.PureOps.Ideal.Laws

noncomputable section

namespace Cert.KernelIdeal.HostRead

open Idealize.ShloMosaic Idealize.ShloMosaic.TcCoe Idealize.SL.Sem Idealize.ShloMosaic.StableHlo
open Idealize.ShloMosaic.ValueIdx
open Cert.KernelIdeal

open Cert.KernelIdeal.Facts₀ Cert.KernelIdeal.Facts

variable (m : (ℓ : Loc nD τ sig) → Buf (Elt Ideal) ℓ)

/-! ## The weight operand: the 2304 × 512 matrix regrouped tap by tap -/

/-- The regrouping of the weight matrix read at an index: entry (tap, ch, f) of the 9 × 256 × 512 array is entry
    (9·ch + tap, f) of the matrix. Row 9·ch + 3·y + x of the matrix is entry (ch, y, x) of its 256 × 3 × 3 × 512 form,
    the transposition moves the two tap axes in front, and the last cast joins them as tap = 3·y + x. -/
theorem regroup_apply (x : S2304x512.Idx → EReal) (tap : Fin 9) (ch : Fin 256) (f : Fin 512) :
    shapeCast S9x256x512
        (transpose S3x3x256x512 [1, 2, 0, 3] (shapeCast S256x3x3x512 x shapeCasts_S2304x512_S256x3x3x512)
          transposes_S256x3x3x512_S3x3x256x512_1_2_0_3)
        shapeCasts_S3x3x256x512_S9x256x512 (ix3 tap ch f)
      = x (ix2 ⟨ch.val * 9 + tap.val, by omega⟩ f) := by
  refine (shapeCast_apply _ shapeCasts_S3x3x256x512_S9x256x512 (ix3 tap ch f)
    (ix4 (⟨tap.val / 3, by omega⟩ : Fin 3) (⟨tap.val % 3, by omega⟩ : Fin 3) ch f) ?_).trans ?_
  · rw [Shape.rowMajor_val_four, Shape.rowMajor_val_three]
    show ((tap.val / 3 * 3 + tap.val % 3) * 256 + ch.val) * 512 + f.val = (tap.val * 256 + ch.val) * 512 + f.val
    omega
  refine (transpose_apply _ _ transposes_S256x3x3x512_S3x3x256x512_1_2_0_3
    (ix4 (⟨tap.val / 3, by omega⟩ : Fin 3) (⟨tap.val % 3, by omega⟩ : Fin 3) ch f)
    (ix4 ch (⟨tap.val / 3, by omega⟩ : Fin 3) (⟨tap.val % 3, by omega⟩ : Fin 3) f) ?_).trans ?_
  · intro b
    match b with
    | ⟨0, _⟩ => rfl
    | ⟨1, _⟩ => rfl
    | ⟨2, _⟩ => rfl
    | ⟨3, _⟩ => rfl
  refine shapeCast_apply _ shapeCasts_S2304x512_S256x3x3x512 _ (ix2 ⟨ch.val * 9 + tap.val, by omega⟩ f) ?_
  rw [Shape.rowMajor_val_two, Shape.rowMajor_val_four]
  show (ch.val * 9 + tap.val) * 512 + f.val = ((ch.val * 3 + tap.val / 3) * 3 + tap.val % 3) * 512 + f.val
  omega

/-- The first weight operand as the region finds it: the regrouped matrix (its change of format the identity). -/
theorem V12_eq (c : Dev nD) : (Gen.V m c main_v12 : S9x256x512.Idx → EReal)
    = truncf (F := Ideal) .bf16
        (shapeCast S9x256x512
          (transpose S3x3x256x512 [1, 2, 0, 3]
            (shapeCast S256x3x3x512 (m ((c.tc : Thread nD τ).loc main_arg1)) shapeCasts_S2304x512_S256x3x3x512)
            transposes_S256x3x3x512_S3x3x256x512_1_2_0_3)
          shapeCasts_S3x3x256x512_S9x256x512) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Entry (tap, ch, f) of the first weight operand is entry (9·ch + tap, f) of the weight matrix. -/
theorem h12 (c : Dev nD) (tap : Fin 9) (ch : Fin 256) (f : Fin 512) :
    (Gen.V m c main_v12 : S9x256x512.Idx → EReal) (ix3 tap ch f)
      = (m ((c.tc : Thread nD τ).loc main_arg1) : S2304x512.Idx → EReal) (ix2 (⟨ch.val * 9 + tap.val, by omega⟩ : Fin 2304) f) := by
  rw [V12_eq m c]
  exact (truncf_apply _ Facts₀.bitsLt_bf16_f32 (ix3 tap ch f)).trans (regroup_apply _ tap ch f)

/-! ## The residue operand: the regrouped weights less their change of format -/

/-- A finite extended real less itself is zero. -/
theorem sub_self_of_real (a : EReal) (h : ∃ r : ℝ, a = (r : EReal)) : a - a = 0 := by
  obtain ⟨r, rfl⟩ := h
  rw [← EReal.coe_sub, sub_self, EReal.coe_zero]

/-- The difference of an array and its change of format there and back, read at an index where the entry is finite:
    zero, a change of format being the identity at the ideal instance. -/
theorem residue_apply (A : FVec Ideal S9x256x512 .f32) (i : S9x256x512.Idx) (h : ∃ r : ℝ, A i = (r : EReal)) :
    truncf (F := Ideal) .bf16
      (subf A (extf (F := Ideal) .f32 (truncf (F := Ideal) .bf16 A Facts₀.bitsLt_bf16_f32) Facts₀.bitsLt_bf16_f32))
      Facts₀.bitsLt_bf16_f32 i = 0 := by
  show A i - A i = 0
  exact sub_self_of_real _ h

/-- The second weight operand as the region finds it. -/
theorem V15_eq (c : Dev nD) : (Gen.V m c main_v15 : S9x256x512.Idx → EReal)
    = truncf (F := Ideal) .bf16
        (subf
          (shapeCast S9x256x512
            (transpose S3x3x256x512 [1, 2, 0, 3]
              (shapeCast S256x3x3x512 (m ((c.tc : Thread nD τ).loc main_arg1)) shapeCasts_S2304x512_S256x3x3x512)
              transposes_S256x3x3x512_S3x3x256x512_1_2_0_3)
            shapeCasts_S3x3x256x512_S9x256x512)
          (extf (F := Ideal) .f32
            (truncf (F := Ideal) .bf16
              (shapeCast S9x256x512
                (transpose S3x3x256x512 [1, 2, 0, 3]
                  (shapeCast S256x3x3x512 (m ((c.tc : Thread nD τ).loc main_arg1)) shapeCasts_S2304x512_S256x3x3x512)
                  transposes_S256x3x3x512_S3x3x256x512_1_2_0_3)
                shapeCasts_S3x3x256x512_S9x256x512)
              Facts₀.bitsLt_bf16_f32)
            Facts₀.bitsLt_bf16_f32))
        Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Every entry of the second weight operand is zero when the weights are finite. -/
theorem h15 (c : Dev nD) (hW : ∀ i, ∃ r : ℝ, (m ((c.tc : Thread nD τ).loc main_arg1) : S2304x512.Idx → EReal) i = (r : EReal))
    (tap : Fin 9) (ch : Fin 256) (f : Fin 512) :
    (Gen.V m c main_v15 : S9x256x512.Idx → EReal) (ix3 tap ch f) = (0 : EReal) := by
  rw [V15_eq m c]
  refine residue_apply _ (ix3 tap ch f) ?_
  obtain ⟨r, hr⟩ := hW (ix2 (⟨ch.val * 9 + tap.val, by omega⟩ : Fin 2304) f)
  exact ⟨r, (regroup_apply _ tap ch f).trans hr⟩

/-! ## The bias operand: the bias as one row -/

/-- A vector read as a one-row matrix: entry (0, f) is entry f. -/
theorem row_apply (x : S512.Idx → EReal) (f : Fin 512) :
    shapeCast S1x512 x shapeCasts_S512_S1x512 (ix2 (0 : Fin 1) f) = x (ix1 f) := by
  refine shapeCast_apply _ shapeCasts_S512_S1x512 _ (ix1 f) ?_
  rw [Shape.rowMajor_val_one, Shape.rowMajor_val_two]
  show f.val = 0 * 512 + f.val
  omega

/-- The bias operand as the region finds it. -/
theorem V16_eq (c : Dev nD) : (Gen.V m c main_v16 : S1x512.Idx → EReal)
    = shapeCast S1x512 (m ((c.tc : Thread nD τ).loc main_arg2)) shapeCasts_S512_S1x512 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Entry (0, f) of the bias operand is entry f of the bias. -/
theorem h16 (c : Dev nD) (f : Fin 512) :
    (Gen.V m c main_v16 : S1x512.Idx → EReal) (ix2 (0 : Fin 1) f)
      = (m ((c.tc : Thread nD τ).loc main_arg2) : S512.Idx → EReal) (ix1 f) := by
  rw [V16_eq m c]
  exact row_apply _ f

/-! ## The weights are finite under the precondition -/

/-- The scalar shape has one index. -/
instance subsingleton_scalar_idx : Subsingleton Cert.Pre_finite_inputs.S_.Idx := ⟨fun a b => funext fun d => d.elim0⟩

/-- An extended real whose absolute value is below +∞ is a real. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => exfalso; revert h; simp [Ideal.cmp]
  | coe r => exact ⟨r, rfl⟩
  | top => exfalso; revert h; simp [Ideal.cmp]

/-- Under the precondition every entry of the weight matrix is a real: the predicate's second conjunct says that
    every |w| is below +∞. -/
theorem weight_finite (h : Cert.Pre_KernelIdeal m) (c : Dev nD) :
    ∀ i, ∃ r : ℝ, (m ((c.tc : Thread nD τ).loc main_arg1) : S2304x512.Idx → EReal) i = (r : EReal) := by
  intro i
  have h0 := congrFun (h c) ValueIdx.ix0
  dsimp only [Cert.Pre_finite_inputs.fn, Idealize.ShloMosaic.andi] at h0
  obtain ⟨h1, -⟩ := IntOp.andi_eq_one.1 h0
  obtain ⟨-, h7⟩ := IntOp.andi_eq_one.1 h1
  have e := Host.reduce_andi_all _ _ _ _ _ h7 i
  exact real_of_abs_lt_inf _ e

/-! ## The image operand: the requantised input, halved, channels last, on its zero frame -/

/-- The word 0x40000000 is the real 2. -/
theorem ofBits_two : Ideal.ofBits .f32 0x40000000#32 = ((2 : ℝ) : EReal) := by
  simp [Ideal.ofBits, Ideal.ieee, -EReal.coe_mul]; norm_num

/-- Half of zero is zero. -/
theorem half_zero : Cert.Conv.half 0 = 0 := by
  unfold Cert.Conv.half
  rw [ofBits_two, Ideal.div_coe (by norm_num : (2 : ℝ) ≠ 0), zero_mul]

/-- The requantisation as the program spells it before the change of layout: 20·x rounded to the nearest integer,
    bounded below by −128 and above by 127, then divided by two. -/
def hostQ (X : FVec Ideal S8x256x52x52 .f32) : FVec Ideal S8x256x52x52 .f32 :=
  Host.divf (F := Ideal)
    (minimumf
      (broadcastInDim S8x256x52x52 ![] Facts₀.bcast_S_S8x256x52x52 (constant (F := Ideal) S_ .f32 0x42FE0000#32))
      (maximumf
        (broadcastInDim S8x256x52x52 ![] Facts₀.bcast_S_S8x256x52x52 (constant (F := Ideal) S_ .f32 0xC3000000#32))
        (Host.roundeven
          (mulf X
            (broadcastInDim S8x256x52x52 ![] Facts₀.bcast_S_S8x256x52x52 (constant (F := Ideal) S_ .f32 0x41A00000#32))))))
    (broadcastInDim S8x256x52x52 ![] Facts₀.bcast_S_S8x256x52x52 (constant (F := Ideal) S_ .f32 0x40000000#32))

/-- Read at an index it is the halved requantisation of the entry: every operation acts entry by entry, and a
    broadcast constant reads its value everywhere. -/
theorem hostQ_apply (X : FVec Ideal S8x256x52x52 .f32) (i : S8x256x52x52.Idx) :
    hostQ X i = Cert.Conv.half (Cert.Conv.quant (X i)) := rfl

/-- The change of layout and the frame, read at an index: entry (n, py, px, ch) of the framed array is entry
    (n, ch, py − 1, px − 1) of the operand inside the frame, and the padding value on the ring. -/
theorem frame_apply (Q : S8x256x52x52.Idx → EReal) (v : S_.Idx → EReal) (n : Fin 8) (py px : Fin 54) (ch : Fin 256) :
    pad S8x54x54x256 ![0, 1, 1, 0] ![0, 1, 1, 0] ![0, 0, 0, 0]
        (transpose S8x52x52x256 [0, 2, 3, 1] Q transposes_S8x256x52x52_S8x52x52x256_0_2_3_1) v
        pads_S8x52x52x256_S8x54x54x256_000_110_110_000 Facts₀.h_S_ (ix4 n py px ch)
      = if h : (1 ≤ py.val ∧ py.val ≤ 52) ∧ (1 ≤ px.val ∧ px.val ≤ 52) then
          Q (ix4 n ch (⟨py.val - 1, by omega⟩ : Fin 52) (⟨px.val - 1, by omega⟩ : Fin 52))
        else v ix0 := by
  by_cases h : (1 ≤ py.val ∧ py.val ≤ 52) ∧ (1 ≤ px.val ∧ px.val ≤ 52)
  · rw [dif_pos h]
    refine (pad_apply_of_inside _ _ _ _ v pads_S8x52x52x256_S8x54x54x256_000_110_110_000 Facts₀.h_S_ (ix4 n py px ch)
      (ix4 n (⟨py.val - 1, by omega⟩ : Fin 52) (⟨px.val - 1, by omega⟩ : Fin 52) ch) ?_).trans ?_
    · intro a
      match a with
      | ⟨0, _⟩ => show n.val = 0 + n.val * (0 + 1); omega
      | ⟨1, _⟩ => show py.val = 1 + (py.val - 1) * (0 + 1); omega
      | ⟨2, _⟩ => show px.val = 1 + (px.val - 1) * (0 + 1); omega
      | ⟨3, _⟩ => show ch.val = 0 + ch.val * (0 + 1); omega
    refine transpose_apply _ Q transposes_S8x256x52x52_S8x52x52x256_0_2_3_1 _
      (ix4 n ch (⟨py.val - 1, by omega⟩ : Fin 52) (⟨px.val - 1, by omega⟩ : Fin 52)) ?_
    intro b
    match b with
    | ⟨0, _⟩ => rfl
    | ⟨1, _⟩ => rfl
    | ⟨2, _⟩ => rfl
    | ⟨3, _⟩ => rfl
  · rw [dif_neg h]
    have hfirst : ∀ hu : 0 < S_.numel, v (Shape.Idx.first hu) = v ix0 := fun hu => congrArg v (funext fun a => a.elim0)
    by_cases hy : 1 ≤ py.val ∧ py.val ≤ 52
    · have hx : ¬(1 ≤ px.val ∧ px.val ≤ 52) := fun hx => h ⟨hy, hx⟩
      refine (pad_apply_of_not_inside _ _ _ _ v pads_S8x52x52x256_S8x54x54x256_000_110_110_000 Facts₀.h_S_ (ix4 n py px ch)
        (⟨2, by decide⟩ : Fin S8x52x52x256.rank) ?_).trans (hfirst _)
      show ¬(1 ≤ px.val ∧ (px.val - 1) % (0 + 1) = 0 ∧ (px.val - 1) / (0 + 1) < 52)
      have := px.isLt
      omega
    · refine (pad_apply_of_not_inside _ _ _ _ v pads_S8x52x52x256_S8x54x54x256_000_110_110_000 Facts₀.h_S_ (ix4 n py px ch)
        (⟨1, by decide⟩ : Fin S8x52x52x256.rank) ?_).trans (hfirst _)
      show ¬(1 ≤ py.val ∧ (py.val - 1) % (0 + 1) = 0 ∧ (py.val - 1) / (0 + 1) < 52)
      have := py.isLt
      omega

/-- The image operand as the region finds it. -/
theorem V8_eq (c : Dev nD) : (Gen.V m c main_v8 : S8x54x54x256.Idx → EReal)
    = truncf (F := Ideal) .bf16
        (pad S8x54x54x256 ![0, 1, 1, 0] ![0, 1, 1, 0] ![0, 0, 0, 0]
          (transpose S8x52x52x256 [0, 2, 3, 1] (hostQ (m ((c.tc : Thread nD τ).loc main_arg0)))
            transposes_S8x256x52x52_S8x52x52x256_0_2_3_1)
          (sitofp (F := Ideal) .f32 (constantI S_ 32 0#32))
          pads_S8x52x52x256_S8x54x54x256_000_110_110_000 Facts₀.h_S_)
        Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Entry (n, py, px, ch) of the image operand is half the framed requantised input there. -/
theorem h8 (c : Dev nD) (n : Fin 8) (py px : Fin 54) (ch : Fin 256) :
    (Gen.V m c main_v8 : S8x54x54x256.Idx → EReal) (ix4 n py px ch)
      = Cert.Conv.half (Cert.Conv.padQ (m ((c.tc : Thread nD τ).loc main_arg0)) n ch py px) := by
  rw [V8_eq m c]
  refine (truncf_apply _ Facts₀.bitsLt_bf16_f32 (ix4 n py px ch)).trans ?_
  refine (frame_apply _ _ n py px ch).trans ?_
  unfold Cert.Conv.padQ
  by_cases h : (1 ≤ py.val ∧ py.val ≤ 52) ∧ (1 ≤ px.val ∧ px.val ≤ 52)
  · rw [dif_pos h, dif_pos h]
    exact hostQ_apply _ _
  · rw [dif_neg h, dif_neg h, half_zero]
    exact sitofp_zero (φ := .f32)

end Cert.KernelIdeal.HostRead

end
-- ==== Proof.KerG.lean ====
/-
  The kernel's result is the convolution of the specification.

  Entry (n, f, oy, ox) of the result is the output array's entry at image n, pixel 52·oy + ox, channel f. There the padded
  image the call reads is half the requantised frame, the first weight array is the weight matrix with its rows regrouped
  tap-major (row 9c + k of the matrix is row c of tap k), the second weight array — the weights minus themselves — is zero
  because the weights are finite, and the bias row is the bias. So the accumulation collapses to the sum over channels and
  taps, and pixel 52·oy + ox is the pixel (oy, ox).
-/
import proofs.«157169_j57483842290268_2_alg».proof.Proof.KerArray
import proofs.«157169_j57483842290268_2_alg».proof.Proof.KerHost
import proofs.«157169_j57483842290268_2_alg».proof.Proof.KerE
import proofs.«157169_j57483842290268_2_alg».proof.Proof.Spec
import Idealize.ShloMosaic.Lib.ValueIdx

noncomputable section

open Idealize.ShloMosaic Idealize.ShloMosaic.TcCoe Idealize.SL.Sem
open Idealize.ShloMosaic.Pipeline (Dat)

namespace Cert.KernelIdeal.Res

open Cert.KernelIdeal Cert.KernelIdeal.Gen Idealize.ShloMosaic.ValueIdx

variable (m : (ℓ : Loc nD τ sig) → Buf (Elt Ideal) ℓ)

/-- The program's result array is `Cert.Conv.G` of the three arguments, when the weights are finite. -/
theorem result_eq_G (c : Dev nD)
    (hW : ∀ i, ∃ r : ℝ, (m ((c.tc : Thread nD τ).loc main_arg1) : S2304x512.Idx → EReal) i = (r : EReal)) :
    (Pipeline.afterTail₀ cfgs (dats m) 0 (V0 m) [hostOps1] c main_v19 : S8x512x52x52.Idx → EReal)
      = Cert.Conv.G (m ((c.tc : Thread nD τ).loc main_arg0)) (m ((c.tc : Thread nD τ).loc main_arg1)) (m ((c.tc : Thread nD τ).loc main_arg2)) := by
  funext i
  obtain ⟨n, f, oy, ox, rfl⟩ : ∃ (n : Fin 8) (f : Fin 512) (oy ox : Fin 52), i = ix4 n f oy ox := ⟨i 0, i 1, i 2, i 3, eq_ix4 i⟩
  rw [Cert.KernelIdeal.Arr.result_apply]
  unfold Cert.KernelIdeal.Arr.blockVal
  simp only [Cert.KernelIdeal.HostRead.h8 m c, Cert.KernelIdeal.HostRead.h12 m c, Cert.KernelIdeal.HostRead.h15 m c hW, Cert.KernelIdeal.HostRead.h16 m c]
  unfold Cert.Conv.entry
  rw [Cert.Conv.nest_zero]
  unfold Cert.Conv.G Cert.Conv.acc
  have hq : (oy.val * 52 + ox.val) / 52 = oy.val := by have := ox.isLt; omega
  have hr : (oy.val * 52 + ox.val) % 52 = ox.val := by have := ox.isLt; omega
  refine congrArg (fun s => Cert.Conv.clipRound ((s + _) * _)) ?_
  refine Finset.sum_congr rfl fun ch _ => Finset.sum_congr rfl fun y _ => Finset.sum_congr rfl fun x _ => ?_
  refine congr (congrArg HMul.hMul (congrArg Cert.Conv.half ?_)) ?_
  · refine congr (congrArg (Cert.Conv.padQ _ n ch) (Fin.ext ?_)) (Fin.ext ?_)
    · show (oy.val * 52 + ox.val) / 52 + y.val = oy.val + y.val
      rw [hq]
    · show (oy.val * 52 + ox.val) % 52 + x.val = ox.val + x.val
      rw [hr]
  · refine congrArg _ (congrArg (fun k => ix2 k f) (Fin.ext ?_))
    show ch.val * 9 + (3 * y.val + x.val) = ch.val * 9 + y.val * 3 + x.val
    omega

end Cert.KernelIdeal.Res

end
-- ==== Proof.lean ====
/-
  A 3×3 convolution (8 images, 256 → 512 channels, 52×52 pixels, zero frame of width one) with int8-style requantisation
  of the input and of the output, computed two ways.

  The reference gathers, for every output pixel, the 2304 = 256·3·3 requantised input values under its window into a row
  (ordered channel, then tap), halves them, and multiplies the 21632×2304 matrix of rows by the 2304×512 weight matrix.
  The kernel keeps the image in place: per image it accumulates, tap by tap, the product of the tap's shifted 2704×256
  view of the padded, halved image with the tap's 256×512 slab of the weights — and a second product with the weights'
  rounding residue (the weights minus themselves read back), which over the extended reals is zero for finite weights.
  Both then add eight times the bias, halve, round to nearest-even and clip to [-128, 127], and lay the result out as
  8×512×52×52.

  At the ideal instance the two are one function of the three arguments, `Cert.Conv.G` (Proof/Spec.lean): the reference by
  reading its operations one at a time and regrouping the row sum by channel and tap (Proof/RefConv.lean); the kernel by the
  value of one grid point's block (Proof/KerBody.lean, KerStep.lean, KerBodyAt.lean), the blocks tiling the output array
  and the two host lines after the call (Proof/KerArray.lean), the arrays the host lines before the call build
  (Proof/KerHost.lean, which also draws the weights' finiteness from the precondition), and the collapse of the accumulation
  to the triple sum (Proof/KerE.lean, KerG.lean). Only the weights' finiteness is used; sums are regrouped by commutativity
  and associativity alone.
-/
import proofs.«157169_j57483842290268_2_alg».proof.Defs
import proofs.«157169_j57483842290268_2_alg».proof.Proof.Gen.Kernel
import proofs.«157169_j57483842290268_2_alg».proof.Proof.Gen.Kernel.Skeleton
import proofs.«157169_j57483842290268_2_alg».proof.Proof.Gen.Kernel.Launch
import proofs.«157169_j57483842290268_2_alg».proof.Proof.Gen.Kernel.Points
import proofs.«157169_j57483842290268_2_alg».proof.Proof.Gen.Kernel.Frame
import proofs.«157169_j57483842290268_2_alg».proof.Proof.Gen.KernelIdeal
import proofs.«157169_j57483842290268_2_alg».proof.Proof.Gen.KernelIdeal.Skeleton
import proofs.«157169_j57483842290268_2_alg».proof.Proof.Gen.KernelIdeal.Launch
import proofs.«157169_j57483842290268_2_alg».proof.Proof.Gen.KernelIdeal.Points
import proofs.«157169_j57483842290268_2_alg».proof.Proof.Gen.KernelIdeal.Frame
import proofs.«157169_j57483842290268_2_alg».proof.Proof.Gen.ReferenceIdeal
import proofs.«157169_j57483842290268_2_alg».proof.Proof.Gen.Pre_finite_inputs
import proofs.«157169_j57483842290268_2_alg».proof.Proof.Gen.ReferenceIdeal.Run
import proofs.«157169_j57483842290268_2_alg».proof.Proof.Gen.ReferenceIdeal.Read
import proofs.«157169_j57483842290268_2_alg».proof.Proof.RefConv
import proofs.«157169_j57483842290268_2_alg».proof.Proof.KerG
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with `Cert.Conv.G` of the arguments in their result
    buffers: the kernel because its weights are finite under the precondition, the reference unconditionally. -/
theorem algebraic : Cert.algebraic_KernelIdeal_ReferenceIdeal := by
  intro m ρ m' ρ' hpre hagree
  refine ⟨fun c => Cert.Conv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Res.result_eq_G m c (Cert.KernelIdeal.HostRead.weight_finite m hpre c)), (h c).2⟩)
      (Cert.KernelIdeal.Arr.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v40_eq, Cert.RefConv.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
